-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x768 : Shape := ⟨3, ![4, 1024, 768]⟩
abbrev S4x12x1024x1024 : Shape := ⟨4, ![4, 12, 1024, 1024]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S4x1024x768 : S_.BroadcastsInDim S4x1024x768 (![] : Fin 0 → Fin S4x1024x768.rank)
  reducesTo_S4x1024x768_S_d0_1_2 : S4x1024x768.ReducesTo [0, 1, 2] S_
  h_S_ : 0 < S_.numel
  bcast_S_S4x12x1024x1024 : S_.BroadcastsInDim S4x12x1024x1024 (![] : Fin 0 → Fin S4x12x1024x1024.rank)
  reducesTo_S4x12x1024x1024_S_d0_1_2_3 : S4x12x1024x1024.ReducesTo [0, 1, 2, 3] S_
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x768 .f32) (main_arg5 : FVec F S768 .f32) (main_v13 : IVec S_ 1) (main_v16 : IVec S2304 1) : IVec S_ 1 :=
  let main_c_5 : IVec S_ 1 := constantI S_ 1 1#1
  let main_v17 : IVec S_ 1 := (fun x v => Host.reduce IntOp.andi x v reducesTo_S2304_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S4x1024x768 .f32) (main_arg1 : FVec F S4x12x1024x1024 .f32) (main_arg2 : FVec F S2304x768 .f32) (main_arg3 : FVec F S2304 .f32) (main_arg4 : FVec F S768x768 .f32) (main_arg5 : FVec F S768 .f32) : IVec S_ 1 :=
  let main_v0 : FVec F S4x1024x768 .f32 := Host.absf main_arg0
  let main_cst : FVec F S_ .f32 := constant S_ .f32 0x7F800000#32
  let main_v1 : FVec F S4x1024x768 .f32 := broadcastInDim S4x1024x768 ![] bcast_S_S4x1024x768 main_cst
  let main_v2 : IVec S4x1024x768 1 := cmpf .olt main_v0 main_v1
  let main_c : IVec S_ 1 := constantI S_ 1 1#1
  let main_v3 : IVec S_ 1 := (fun x v => Host.reduce IntOp.andi x v reducesTo_S4x1024x768_S_d0_1_2 h_S_) main_v2 main_c
  let main_v4 : FVec F S4x12x1024x1024 .f32 := Host.absf main_arg1
  let main_cst_0 : FVec F S_ .f32 := constant S_ .f32 0x7F800000#32
  let main_v5 : FVec F S4x12x1024x1024 .f32 := broadcastInDim S4x12x1024x1024 ![] bcast_S_S4x12x1024x1024 main_cst_0
  let main_v6 : IVec S4x12x1024x1024 1 := cmpf .olt main_v4 main_v5
  let main_c_1 : IVec S_ 1 := constantI S_ 1 1#1
  let main_v7 : IVec S_ 1 := (fun x v => Host.reduce IntOp.andi x v reducesTo_S4x12x1024x1024_S_d0_1_2_3 h_S_) main_v6 main_c_1
  let main_v8 : IVec S_ 1 := andi main_v3 main_v7
  let main_v9 : FVec F S2304x768 .f32 := Host.absf main_arg2
  let main_cst_2 : FVec F S_ .f32 := constant S_ .f32 0x7F800000#32
  let main_v10 : FVec F S2304x768 .f32 := broadcastInDim S2304x768 ![] bcast_S_S2304x768 main_cst_2
  let main_v11 : IVec S2304x768 1 := cmpf .olt main_v9 main_v10
  let main_c_3 : IVec S_ 1 := constantI S_ 1 1#1
  let main_v12 : IVec S_ 1 := (fun x v => Host.reduce IntOp.andi x v reducesTo_S2304x768_S_d0_1 h_S_) main_v11 main_c_3
  let main_v13 : IVec S_ 1 := andi main_v8 main_v12
  let main_v14 : FVec F S2304 .f32 := Host.absf main_arg3
  let main_cst_4 : FVec F S_ .f32 := constant S_ .f32 0x7F800000#32
  let main_v15 : FVec F S2304 .f32 := broadcastInDim S2304 ![] bcast_S_S2304 main_cst_4
  let main_v16 : IVec S2304 1 := cmpf .olt main_v14 main_v15
  fn_part1 (F := F) main_arg4 main_arg5 main_v13 main_v16
-- ==== Kernel.lean ====
abbrev S4x1024x768 : Shape := ⟨3, ![4, 1024, 768]⟩
abbrev S4x12x1024x1024 : Shape := ⟨4, ![4, 12, 1024, 1024]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S4x12x1024x64 : Shape := ⟨4, ![4, 12, 1024, 64]⟩
abbrev S1x512x768 : Shape := ⟨3, ![1, 512, 768]⟩
abbrev S1x12x512x64 : Shape := ⟨4, ![1, 12, 512, 64]⟩
abbrev S512x768 : Shape := ⟨2, ![512, 768]⟩
abbrev S512x2304 : Shape := ⟨2, ![512, 2304]⟩
abbrev S1x2304 : Shape := ⟨2, ![1, 2304]⟩
abbrev S512x12x64 : Shape := ⟨3, ![512, 12, 64]⟩
abbrev S12x512x64 : Shape := ⟨3, ![12, 512, 64]⟩
abbrev S1x1x1024x64 : Shape := ⟨4, ![1, 1, 1024, 64]⟩
abbrev S1x1x1024x1024 : Shape := ⟨4, ![1, 1, 1024, 1024]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x768 : Shape := ⟨2, ![1, 768]⟩

abbrev nBuf : Space → Nat
  | .hbm => 11
  | .vmem => 26
  | .smem => 0
  | _ => 0

abbrev bufTy : (tb : Table) → Fin (tcTables nBuf tb) → BufTy
  | .hbm, ⟨0, _⟩ => ⟨S4x1024x768, .f32⟩
  | .hbm, ⟨1, _⟩ => ⟨S4x12x1024x1024, .f32⟩
  | .hbm, ⟨2, _⟩ => ⟨S2304x768, .f32⟩
  | .hbm, ⟨3, _⟩ => ⟨S2304, .f32⟩
  | .hbm, ⟨4, _⟩ => ⟨S768x768, .f32⟩
  | .hbm, ⟨5, _⟩ => ⟨S768, .f32⟩
  | .hbm, ⟨6, _⟩ => ⟨S4x12x1024x64, .f32⟩
  | .hbm, ⟨7, _⟩ => ⟨S4x12x1024x64, .f32⟩
  | .hbm, ⟨8, _⟩ => ⟨S4x12x1024x64, .f32⟩
  | .hbm, ⟨9, _⟩ => ⟨S4x12x1024x64, .f32⟩
  | .hbm, ⟨10, _⟩ => ⟨S4x1024x768, .f32⟩
  | .local _ .vmem, ⟨0, _⟩ => ⟨S1x512x768, .f32⟩
  | .local _ .vmem, ⟨1, _⟩ => ⟨S1x512x768, .f32⟩
  | .local _ .vmem, ⟨2, _⟩ => ⟨S2304x768, .f32⟩
  | .local _ .vmem, ⟨3, _⟩ => ⟨S2304, .f32⟩
  | .local _ .vmem, ⟨4, _⟩ => ⟨S1x12x512x64, .f32⟩
  | .local _ .vmem, ⟨5, _⟩ => ⟨S1x12x512x64, .f32⟩
  | .local _ .vmem, ⟨6, _⟩ => ⟨S1x12x512x64, .f32⟩
  | .local _ .vmem, ⟨7, _⟩ => ⟨S1x12x512x64, .f32⟩
  | .local _ .vmem, ⟨8, _⟩ => ⟨S1x12x512x64, .f32⟩
  | .local _ .vmem, ⟨9, _⟩ => ⟨S1x12x512x64, .f32⟩
  | .local _ .vmem, ⟨10, _⟩ => ⟨S1x1x1024x64, .f32⟩
  | .local _ .vmem, ⟨11, _⟩ => ⟨S1x1x1024x64, .f32⟩
  | .local _ .vmem, ⟨12, _⟩ => ⟨S1x1x1024x64, .f32⟩
  | .local _ .vmem, ⟨13, _⟩ => ⟨S1x1x1024x64, .f32⟩
  | .local _ .vmem, ⟨14, _⟩ => ⟨S1x1x1024x64, .f32⟩
  | .local _ .vmem, ⟨15, _⟩ => ⟨S1x1x1024x64, .f32⟩
  | .local _ .vmem, ⟨16, _⟩ => ⟨S1x1x1024x1024, .f32⟩
  | .local _ .vmem, ⟨17, _⟩ => ⟨S1x1x1024x1024, .f32⟩
  | .local _ .vmem, ⟨18, _⟩ => ⟨S1x1x1024x64, .f32⟩
  | .local _ .vmem, ⟨19, _⟩ => ⟨S1x1x1024x64, .f32⟩
  | .local _ .vmem, ⟨20, _⟩ => ⟨S1x12x512x64, .f32⟩
  | .local _ .vmem, ⟨21, _⟩ => ⟨S1x12x512x64, .f32⟩
  | .local _ .vmem, ⟨22, _⟩ => ⟨S768x768, .f32⟩
  | .local _ .vmem, ⟨23, _⟩ => ⟨S768, .f32⟩
  | .local _ .vmem, ⟨24, _⟩ => ⟨S1x512x768, .f32⟩
  | .local _ .vmem, ⟨25, _⟩ => ⟨S1x512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2304x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x12x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x12x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x12x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 12], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![4, 2], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x12x512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S768x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S2304x768_S2304x768_0_0 : ∀ a, (![0, 0] : Fin 2 → Nat) a + S2304x768.size a ≤ S2304x768.size a
  h_S2304x768 : 0 < S2304x768.numel
  inb_S2304_S2304_0 : ∀ a, (![0] : Fin 1 → Nat) a + S2304.size a ≤ S2304.size a
  h_S2304 : 0 < S2304.numel
  bitsLt_bf16_f32 : FTy.bits .bf16 < FTy.bits .f32
  shapeCasts_S2304_S1x2304 : S2304.ShapeCasts S1x2304
  broadcasts_S1x2304_S512x2304 : S1x2304.Broadcasts S512x2304
  slices_S512x2304_o0_0_S512x768 : S512x2304.Slices ![0, 0] S512x768
  slices_S512x2304_o0_768_S512x768 : S512x2304.Slices ![0, 768] S512x768
  slices_S512x2304_o0_1536_S512x768 : S512x2304.Slices ![0, 1536] S512x768
  shapeCasts_S512x768_S512x12x64 : S512x768.ShapeCasts S512x12x64
  transposes_S512x12x64_p1_0_2_S12x512x64 : S512x12x64.Transposes [1, 0, 2] S12x512x64
  inb_S1x12x512x64_S1x12x512x64_0_0_0_0 : ∀ a, (![0, 0, 0, 0] : Fin 4 → Nat) a + S1x12x512x64.size a ≤ S1x12x512x64.size a
  h_S1x12x512x64 : 0 < S1x12x512x64.numel
  shapeCasts_S1x12x512x64_S12x512x64 : S1x12x512x64.ShapeCasts S12x512x64
  shapeCasts_S12x512x64_S1x12x512x64 : S12x512x64.ShapeCasts S1x12x512x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1x1024x64 : S1024x64.ShapeCasts S1x1x1024x64
  transposes_S12x512x64_p1_0_2_S512x12x64 : S12x512x64.Transposes [1, 0, 2] S512x12x64
  shapeCasts_S512x12x64_S512x768 : S512x12x64.ShapeCasts S512x768
  inb_S768x768_S768x768_0_0 : ∀ a, (![0, 0] : Fin 2 → Nat) a + S768x768.size a ≤ S768x768.size a
  h_S768x768 : 0 < S768x768.numel
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  shapeCasts_S512x768_S1x512x768 : S512x768.ShapeCasts S1x512x768
  dot_S512x768_S2304x768_S512x2304_1_1_0_0_n_n_wf : DotDims.WF S512x768 S2304x768 S512x2304 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S512x768_S768x768_S512x768_1_1_0_0_n_n_wf : DotDims.WF S512x768 S768x768 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S4x1024x768.size a
  hwx0_0 : ∀ i : grid0.Coords, EltTy.bits .f32 = 32 ∨ (Rect.block (s := S4x1024x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .f32 = 32 ∨ (Rect.block (s := S2304x768) S2304x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x12x512x64.size a ≤ S4x12x1024x64.size a
  hwx0_3 : ∀ i : grid0.Coords, EltTy.bits .f32 = 32 ∨ (Rect.block (s := S4x12x1024x64) S1x12x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x12x512x64.size a ≤ S4x12x1024x64.size a
  hwx0_4 : ∀ i : grid0.Coords, EltTy.bits .f32 = 32 ∨ (Rect.block (s := S4x12x1024x64) S1x12x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x12x512x64.size a ≤ S4x12x1024x64.size a
  hwx0_5 : ∀ i : grid0.Coords, EltTy.bits .f32 = 32 ∨ (Rect.block (s := S4x12x1024x64) S1x12x512x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S4x12x1024x64.size a
  hwx1_0 : ∀ i : grid1.Coords, EltTy.bits .f32 = 32 ∨ (Rect.block (s := S4x12x1024x64) S1x1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x64.size a ≤ S4x12x1024x64.size a
  hwx1_1 : ∀ i : grid1.Coords, EltTy.bits .f32 = 32 ∨ (Rect.block (s := S4x12x1024x64) S1x1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x64.size a ≤ S4x12x1024x64.size a
  hwx1_2 : ∀ i : grid1.Coords, EltTy.bits .f32 = 32 ∨ (Rect.block (s := S4x12x1024x64) S1x1x1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024x1024.size a ≤ S4x12x1024x1024.size a
  hwx1_3 : ∀ i : grid1.Coords, EltTy.bits .f32 = 32 ∨ (Rect.block (s := S4x12x1024x1024) S1x1x1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024x64.size a ≤ S4x12x1024x64.size a
  hwx1_4 : ∀ i : grid1.Coords, EltTy.bits .f32 = 32 ∨ (Rect.block (s := S4x12x1024x64) S1x1x1024x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x12x512x64.size a ≤ S4x12x1024x64.size a
  hwx2_0 : ∀ i : grid2.Coords, EltTy.bits .f32 = 32 ∨ (Rect.block (s := S4x12x1024x64) S1x12x512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .f32 = 32 ∨ (Rect.block (s := S768x768) S768x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768.size a ≤ S768.size a
  hwx2_2 : ∀ i : grid2.Coords, EltTy.bits .f32 = 32 ∨ (Rect.block (s := S768) S768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x768.size a ≤ S4x1024x768.size a
  hwx2_3 : ∀ i : grid2.Coords, EltTy.bits .f32 = 32 ∨ (Rect.block (s := S4x1024x768) S1x512x768.size (cc2_transform_3 i) (hinb2_3 i)).WholeWords (EltTy.packing .f32)

variable [Facts₀]

def dot_S512x768_S2304x768_S512x2304_1_1_0_0_n_n : DotDims S512x768 S2304x768 S512x2304 where
  lhsContracting := [1]
  rhsContracting := [1]
  lhsNonContracting := [0]
  rhsNonContracting := [0]
  lhsBatch := []
  rhsBatch := []
  wf := dot_S512x768_S2304x768_S512x2304_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x12x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x12x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x12x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1x1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1) S1x12x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x512x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x1024x768 : Shape := ⟨3, ![4, 1024, 768]⟩
abbrev S4x12x1024x1024 : Shape := ⟨4, ![4, 12, 1024, 1024]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S4x1024x2304 : Shape := ⟨3, ![4, 1024, 2304]⟩
abbrev S1x1x2304 : Shape := ⟨3, ![1, 1, 2304]⟩
abbrev S4x1024x12x64 : Shape := ⟨4, ![4, 1024, 12, 64]⟩
abbrev S4x12x1024x64 : Shape := ⟨4, ![4, 12, 1024, 64]⟩
abbrev S_ : Shape := ⟨0, ![]⟩
abbrev S4x12x1024 : Shape := ⟨3, ![4, 12, 1024]⟩
abbrev S4x12x1024x1 : Shape := ⟨4, ![4, 12, 1024, 1]⟩
abbrev S1x1x768 : Shape := ⟨3, ![1, 1, 768]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x12x1024x1024, .f32⟩
  | .hbm, ⟨2, _⟩ => ⟨S2304x768, .f32⟩
  | .hbm, ⟨3, _⟩ => ⟨S2304, .f32⟩
  | .hbm, ⟨4, _⟩ => ⟨S768x768, .f32⟩
  | .hbm, ⟨5, _⟩ => ⟨S768, .f32⟩
  | .hbm, ⟨6, _⟩ => ⟨S4x1024x2304, .f32⟩
  | .hbm, ⟨7, _⟩ => ⟨S1x1x2304, .f32⟩
  | .hbm, ⟨8, _⟩ => ⟨S4x1024x2304, .f32⟩
  | .hbm, ⟨9, _⟩ => ⟨S4x1024x2304, .f32⟩
  | .hbm, ⟨10, _⟩ => ⟨S4x1024x768, .f32⟩
  | .hbm, ⟨11, _⟩ => ⟨S4x1024x768, .f32⟩
  | .hbm, ⟨12, _⟩ => ⟨S4x1024x768, .f32⟩
  | .hbm, ⟨13, _⟩ => ⟨S4x1024x12x64, .f32⟩
  | .hbm, ⟨14, _⟩ => ⟨S4x12x1024x64, .f32⟩
  | .hbm, ⟨15, _⟩ => ⟨S_, .f32⟩
  | .hbm, ⟨16, _⟩ => ⟨S4x12x1024x64, .f32⟩
  | .hbm, ⟨17, _⟩ => ⟨S4x12x1024x64, .f32⟩
  | .hbm, ⟨18, _⟩ => ⟨S4x1024x12x64, .f32⟩
  | .hbm, ⟨19, _⟩ => ⟨S4x12x1024x64, .f32⟩
  | .hbm, ⟨20, _⟩ => ⟨S4x1024x12x64, .f32⟩
  | .hbm, ⟨21, _⟩ => ⟨S4x12x1024x64, .f32⟩
  | .hbm, ⟨22, _⟩ => ⟨S4x12x1024x1024, .f32⟩
  | .hbm, ⟨23, _⟩ => ⟨S4x12x1024x1024, .f32⟩
  | .hbm, ⟨24, _⟩ => ⟨S_, .f32⟩
  | .hbm, ⟨25, _⟩ => ⟨S4x12x1024, .f32⟩
  | .hbm, ⟨26, _⟩ => ⟨S_, .f32⟩
  | .hbm, ⟨27, _⟩ => ⟨S4x12x1024, .f32⟩
  | .hbm, ⟨28, _⟩ => ⟨S4x12x1024, .f32⟩
  | .hbm, ⟨29, _⟩ => ⟨S4x12x1024x1, .f32⟩
  | .hbm, ⟨30, _⟩ => ⟨S4x12x1024x1024, .f32⟩
  | .hbm, ⟨31, _⟩ => ⟨S4x12x1024x1024, .f32⟩
  | .hbm, ⟨32, _⟩ => ⟨S4x12x1024x1024, .f32⟩
  | .hbm, ⟨33, _⟩ => ⟨S_, .f32⟩
  | .hbm, ⟨34, _⟩ => ⟨S4x12x1024, .f32⟩
  | .hbm, ⟨35, _⟩ => ⟨S4x12x1024x1, .f32⟩
  | .hbm, ⟨36, _⟩ => ⟨S4x12x1024x1024, .f32⟩
  | .hbm, ⟨37, _⟩ => ⟨S4x12x1024x1024, .f32⟩
  | .hbm, ⟨38, _⟩ => ⟨S4x12x1024x64, .f32⟩
  | .hbm, ⟨39, _⟩ => ⟨S4x1024x12x64, .f32⟩
  | .hbm, ⟨40, _⟩ => ⟨S4x1024x768, .f32⟩
  | .hbm, ⟨41, _⟩ => ⟨S4x1024x768, .f32⟩
  | .hbm, ⟨42, _⟩ => ⟨S1x1x768, .f32⟩
  | .hbm, ⟨43, _⟩ => ⟨S4x1024x768, .f32⟩
  | .hbm, ⟨44, _⟩ => ⟨S4x1024x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S4x1024x2304_0_1_2 : S1x1x2304.BroadcastsInDim S4x1024x2304 (![0, 1, 2] : Fin 3 → Fin S4x1024x2304.rank)
  slices_S4x1024x2304_S4x1024x768_0_0_0 : S4x1024x2304.Slices ![0, 0, 0] S4x1024x768
  slices_S4x1024x2304_S4x1024x768_0_0_768 : S4x1024x2304.Slices ![0, 0, 768] S4x1024x768
  slices_S4x1024x2304_S4x1024x768_0_0_1536 : S4x1024x2304.Slices ![0, 0, 1536] S4x1024x768
  shapeCasts_S4x1024x768_S4x1024x12x64 : S4x1024x768.ShapeCasts S4x1024x12x64
  transposes_S4x1024x12x64_S4x12x1024x64_0_2_1_3 : S4x1024x12x64.Transposes [0, 2, 1, 3] S4x12x1024x64
  bcast_S_S4x12x1024x64 : S_.BroadcastsInDim S4x12x1024x64 (![] : Fin 0 → Fin S4x12x1024x64.rank)
  reducesTo_S4x12x1024x1024_S4x12x1024_d3 : S4x12x1024x1024.ReducesTo [3] S4x12x1024
  h_S_ : 0 < S_.numel
  bcast_S_S4x12x1024 : S_.BroadcastsInDim S4x12x1024 (![] : Fin 0 → Fin S4x12x1024.rank)
  bcast_S4x12x1024_S4x12x1024x1_0_1_2 : S4x12x1024.BroadcastsInDim S4x12x1024x1 (![0, 1, 2] : Fin 3 → Fin S4x12x1024x1.rank)
  bcast_S4x12x1024x1_S4x12x1024x1024_0_1_2_3 : S4x12x1024x1.BroadcastsInDim S4x12x1024x1024 (![0, 1, 2, 3] : Fin 4 → Fin S4x12x1024x1024.rank)
  transposes_S4x12x1024x64_S4x1024x12x64_0_2_1_3 : S4x12x1024x64.Transposes [0, 2, 1, 3] S4x1024x12x64
  shapeCasts_S4x1024x12x64_S4x1024x768 : S4x1024x12x64.ShapeCasts S4x1024x768
  bcast_S768_S1x1x768_2 : S768.BroadcastsInDim S1x1x768 (![2] : Fin 1 → Fin S1x1x768.rank)
  bcast_S1x1x768_S4x1024x768_0_1_2 : S1x1x768.BroadcastsInDim S4x1024x768 (![0, 1, 2] : Fin 3 → Fin S4x1024x768.rank)
  dot_S4x1024x768_S2304x768_S4x1024x2304_2_1_01_0_n_n_wf : DotDims.WF S4x1024x768 S2304x768 S4x1024x2304 [2] [1] [0, 1] [0] [] []
  dot_S4x12x1024x64_S4x12x1024x64_S4x12x1024x1024_3_3_2_2_01_01_wf : DotDims.WF S4x12x1024x64 S4x12x1024x64 S4x12x1024x1024 [3] [3] [2] [2] [0, 1] [0, 1]
  dot_S4x12x1024x1024_S4x12x1024x64_S4x12x1024x64_3_2_2_3_01_01_wf : DotDims.WF S4x12x1024x1024 S4x12x1024x64 S4x12x1024x64 [3] [2] [2] [3] [0, 1] [0, 1]
  dot_S4x1024x768_S768x768_S4x1024x768_2_1_01_0_n_n_wf : DotDims.WF S4x1024x768 S768x768 S4x1024x768 [2] [1] [0, 1] [0] [] []

variable [Facts₀]

def dot_S4x1024x768_S2304x768_S4x1024x2304_2_1_01_0_n_n : DotDims S4x1024x768 S2304x768 S4x1024x2304 where
  lhsContracting := [2]
  rhsContracting := [1]
  lhsNonContracting := [0, 1]
  rhsNonContracting := [0]
  lhsBatch := []
  rhsBatch := []
  wf := dot_S4x1024x768_S2304x768_S4x1024x2304_2_1_01_0_n_n_wf
def dot_S4x12x1024x64_S4x12x1024x64_S4x12x1024x1024_3_3_2_2_01_01 : DotDims S4x12x1024x64 S4x12x1024x64 S4x12x1024x1024 where
  lhsContracting := [3]
  rhsContracting := [3]
  lhsNonContracting := [2]
  rhsNonContracting := [2]
  lhsBatch := [0, 1]
  rhsBatch := [0, 1]
  wf := dot_S4x12x1024x64_S4x12x1024x64_S4x12x1024x1024_3_3_2_2_01_01_wf
def dot_S4x12x1024x1024_S4x12x1024x64_S4x12x1024x64_3_2_2_3_01_01 : DotDims S4x12x1024x1024 S4x12x1024x64 S4x12x1024x64 where
  lhsContracting := [3]
  rhsContracting := [2]
  lhsNonContracting := [2]
  rhsNonContracting := [3]
  lhsBatch := [0, 1]
  rhsBatch := [0, 1]
  wf := dot_S4x12x1024x1024_S4x12x1024x64_S4x12x1024x64_3_2_2_3_01_01_wf
def dot_S4x1024x768_S768x768_S4x1024x768_2_1_01_0_n_n : DotDims S4x1024x768 S768x768 S4x1024x768 where
  lhsContracting := [2]
  rhsContracting := [1]
  lhsNonContracting := [0, 1]
  rhsNonContracting := [0]
  lhsBatch := []
  rhsBatch := []
  wf := dot_S4x1024x768_S768x768_S4x1024x768_2_1_01_0_n_n_wf

class Facts : Prop extends Facts₀ where

variable [Facts]
-- ==== Proof.Spec.lean ====
/-
  Multi-head self-attention over the extended reals, written once, index by index, as three stages.

  Stage 1 (fused projection): for a token (b, l) and an output feature e of the 2304 = 3 · 768 fused features,
    proj x w β b l e = Σ_k x[b, l, k] · w[e, k] + β[e].
  Feature p · 768 + h · 64 + d is lane d of head h of the query (p = 0), key (p = 1) or value (p = 2); the query is
  scaled by 1/8 = 64^(-1/2), an exact dyadic. This gives the three per-head arrays Q, K, V of shape [4, 12, 1024, 64].

  Stage 2 (attention of one head, one query row at a time): score[b, h, q, k] = Σ_d Q[b, h, q, d] · K[b, h, k, d] + bias[b, h, q, k]; the row
  maximum is the fold of max from -∞ over k (taken once more against -∞, as both programs do); the softmax numerator is
  exp (score - max), its denominator the row sum, the probability their quotient, and the head's output
  O[b, h, q, d] = Σ_k prob[b, h, q, k] · V[b, h, k, d].

  Stage 3 (output projection): the heads are laid side by side, feature k of a token is lane k % 64 of head k / 64, and
    y[b, l, e] = Σ_k O[b, k / 64, l, k % 64] · w_out[e, k] + β_out[e].

  No law of arithmetic is used anywhere: both programs compute exactly these terms, the kernel block by block.
-/
import Idealize.ShloMosaic.PureOps.Ideal
import Idealize.ShloMosaic.PureOps.Ideal.Laws
import Idealize.ShloMosaic.Lib.ValueIdx

noncomputable section

namespace Cert.MHA

open Idealize.ShloMosaic Idealize.ShloMosaic.ValueIdx

/-- Token arrays [batch, position, feature]: the input x and the result y. -/
abbrev Tok : Shape := ⟨3, ![4, 1024, 768]⟩
/-- Score arrays [batch, head, query, key]: the attention bias. -/
abbrev Sc : Shape := ⟨4, ![4, 12, 1024, 1024]⟩
/-- Per-head arrays [batch, head, position, lane]: Q, K, V and the heads' outputs. -/
abbrev Hd : Shape := ⟨4, ![4, 12, 1024, 64]⟩
abbrev WIn : Shape := ⟨2, ![2304, 768]⟩
abbrev BIn : Shape := ⟨1, ![2304]⟩
abbrev WOut : Shape := ⟨2, ![768, 768]⟩
abbrev BOut : Shape := ⟨1, ![768]⟩

/-- The query scale 64^(-1/2) = 1/8, as the binary literal both programs carry. -/
def scale : EReal := Ideal.ofBits .f32 0x3E000000#32
/-- -∞, the value a row maximum starts from. -/
def negInf : EReal := Ideal.ofBits .f32 0xFF800000#32

/-! ## Stage 1: the fused projection -/

/-- A dot product of two rows of 768 entries plus a bias: the shape of both projections. -/
def dotRow (xrow wrow : Fin 768 → EReal) (β : EReal) : EReal :=
  (∑ k : Fin 768, xrow k * wrow k) + β

/-- Feature `e` of token (b, l) of the fused projection: a dot product over the 768 input features plus the bias. -/
def proj (x : Tok.Idx → EReal) (w : WIn.Idx → EReal) (β : BIn.Idx → EReal) (b : Fin 4) (l : Fin 1024) (e : Fin 2304) : EReal :=
  dotRow (fun k => x (ix3 b l k)) (fun k => w (ix2 e k)) (β (ix1 e))

/-- The fused feature holding lane `d` of head `h` in third `p` (query, key, value). -/
def feat (p : Fin 3) (h : Fin 12) (d : Fin 64) : Fin 2304 :=
  ⟨p.val * 768 + h.val * 64 + d.val, by have := p.isLt; have := h.isLt; have := d.isLt; omega⟩

def qAt (x : Tok.Idx → EReal) (w : WIn.Idx → EReal) (β : BIn.Idx → EReal) (b : Fin 4) (h : Fin 12) (l : Fin 1024) (d : Fin 64) : EReal :=
  proj x w β b l (feat 0 h d) * scale
def kAt (x : Tok.Idx → EReal) (w : WIn.Idx → EReal) (β : BIn.Idx → EReal) (b : Fin 4) (h : Fin 12) (l : Fin 1024) (d : Fin 64) : EReal :=
  proj x w β b l (feat 1 h d)
def vAt (x : Tok.Idx → EReal) (w : WIn.Idx → EReal) (β : BIn.Idx → EReal) (b : Fin 4) (h : Fin 12) (l : Fin 1024) (d : Fin 64) : EReal :=
  proj x w β b l (feat 2 h d)

/-- The scaled queries, the keys and the values as whole arrays. -/
def Qarr (x : Tok.Idx → EReal) (w : WIn.Idx → EReal) (β : BIn.Idx → EReal) : Hd.Idx → EReal :=
  fun i => qAt x w β (i 0) (i 1) (i 2) (i 3)
def Karr (x : Tok.Idx → EReal) (w : WIn.Idx → EReal) (β : BIn.Idx → EReal) : Hd.Idx → EReal :=
  fun i => kAt x w β (i 0) (i 1) (i 2) (i 3)
def Varr (x : Tok.Idx → EReal) (w : WIn.Idx → EReal) (β : BIn.Idx → EReal) : Hd.Idx → EReal :=
  fun i => vAt x w β (i 0) (i 1) (i 2) (i 3)

/-! ## Stage 2: one head's attention -/

section Row

-- one query row (64 lanes), the 1024 key rows, and the query's row of the bias
variable (qrow : Fin 64 → EReal) (krows : Fin 1024 → Fin 64 → EReal) (brow : Fin 1024 → EReal)

/-- The score of the query against key `k`. -/
def rowScore (k : Fin 1024) : EReal := (∑ d : Fin 64, qrow d * krows k d) + brow k

/-- The row maximum: the fold of max from -∞ over the keys, then once more against -∞. -/
def rowMax : EReal :=
  max negInf ((Finset.univ : Finset (Fin 1024)).fold max negInf (fun k => rowScore qrow krows brow k))

/-- The softmax numerator at key `k`, the denominator, and the probability. -/
def rowExp (k : Fin 1024) : EReal := Ideal.exp (rowScore qrow krows brow k - rowMax qrow krows brow)
def rowDen : EReal := ∑ k : Fin 1024, rowExp qrow krows brow k
def rowProb (k : Fin 1024) : EReal := Ideal.div (rowExp qrow krows brow k) (rowDen qrow krows brow)

/-- One lane of the head's output for this query: the probabilities against that lane of the 1024 value rows. -/
def headRow (vcol : Fin 1024 → EReal) : EReal := ∑ k : Fin 1024, rowProb qrow krows brow k * vcol k

end Row

def attnAt (Q K V : Hd.Idx → EReal) (B : Sc.Idx → EReal) (b : Fin 4) (h : Fin 12) (q : Fin 1024) (d : Fin 64) : EReal :=
  headRow (fun d' => Q (ix4 b h q d')) (fun k d' => K (ix4 b h k d')) (fun k => B (ix4 b h q k)) (fun k => V (ix4 b h k d))

def Oarr (Q K V : Hd.Idx → EReal) (B : Sc.Idx → EReal) : Hd.Idx → EReal :=
  fun i => attnAt Q K V B (i 0) (i 1) (i 2) (i 3)

/-! ## Stage 3: the output projection -/

/-- Head and lane of merged feature `k`. -/
def headOf (k : Fin 768) : Fin 12 := ⟨k.val / 64, by have := k.isLt; omega⟩
def laneOf (k : Fin 768) : Fin 64 := ⟨k.val % 64, by omega⟩

def outAt (O : Hd.Idx → EReal) (w : WOut.Idx → EReal) (β : BOut.Idx → EReal) (b : Fin 4) (l : Fin 1024) (e : Fin 768) : EReal :=
  dotRow (fun k => O (ix4 b (headOf k) l (laneOf k))) (fun k => w (ix2 e k)) (β (ix1 e))

def Yarr (O : Hd.Idx → EReal) (w : WOut.Idx → EReal) (β : BOut.Idx → EReal) : Tok.Idx → EReal :=
  fun i => outAt O w β (i 0) (i 1) (i 2)

/-! ## The whole layer -/

def layer (x : Tok.Idx → EReal) (B : Sc.Idx → EReal) (w : WIn.Idx → EReal) (β : BIn.Idx → EReal)
    (wo : WOut.Idx → EReal) (βo : BOut.Idx → EReal) : Tok.Idx → EReal :=
  Yarr (Oarr (Qarr x w β) (Karr x w β) (Varr x w β) B) wo βo

end Cert.MHA

end
-- ==== Proof.RefSpec.lean ====
/-
  The reference program computes the layer of the specification.

  Each operation of the reference is read at an index from its operands at an index; the proofs below walk the chain
  of operations from a result inwards, identify the composed index with a literal one, and meet the specification's
  terms. No law of arithmetic is used except 0 + s = s for the row sum's initial value.
-/
import proofs.«117631_j45681272160319_1_alg».proof.Proof.Spec
import proofs.«117631_j45681272160319_1_alg».proof.Proof.Gen.ReferenceIdeal.Read

noncomputable section

namespace Cert.MHA.Ref

open Cert.ReferenceIdeal Cert.ReferenceIdeal.Gen Cert.ReferenceIdeal.Read Cert.MHA Idealize.ShloMosaic Idealize.ShloMosaic.ValueIdx

/-- Operand types, as the reference's reading states them. -/
abbrev TX := (⟨S4x1024x768, .f32⟩ : BufTy).Contents (Elt Ideal)
abbrev TB := (⟨S4x12x1024x1024, .f32⟩ : BufTy).Contents (Elt Ideal)
abbrev TW := (⟨S2304x768, .f32⟩ : BufTy).Contents (Elt Ideal)
abbrev Tβ := (⟨S2304, .f32⟩ : BufTy).Contents (Elt Ideal)
abbrev TWo := (⟨S768x768, .f32⟩ : BufTy).Contents (Elt Ideal)
abbrev Tβo := (⟨S768, .f32⟩ : BufTy).Contents (Elt Ideal)
abbrev TH := (⟨S4x12x1024x64, .f32⟩ : BufTy).Contents (Elt Ideal)

/-! ## Stage 1: the fused projection and its three thirds -/

/-- The fused projection (the product with the input weights plus the broadcast bias) at token (b, l), feature e. -/
theorem v3_at (x0 : TX) (x2 : TW) (x3 : Tβ) (b : Fin 4) (l : Fin 1024) (e : Fin 2304) :
    val_main_v3 (F := Ideal) x0 x2 x3 (ix3 b l e) = proj x0 x2 x3 b l e := by
  rw [val_main_v3_apply, val_main_v0_apply, val_main_v2_apply, val_main_v1_apply]
  unfold proj dotRow
  rw [Ideal.addf_def]
  have e1 : ∀ k : Fin 768, lidx_main_v0 (ix3 b l e) k = ix3 b l k := fun k => funext fun a => Fin.ext (by
    match a with
    | ⟨0, _⟩ => rfl
    | ⟨1, _⟩ => rfl
    | ⟨2, _⟩ => rfl)
  have e2 : ∀ k : Fin 768, ridx_main_v0 (ix3 b l e) k = ix2 e k := fun k => funext fun a => Fin.ext (by
    match a with
    | ⟨0, _⟩ => rfl
    | ⟨1, _⟩ => rfl)
  have e3 : idx_main_v1 (idx_main_v2 (ix3 b l e)) = ix1 e := funext fun a => Fin.ext (by
    match a with
    | ⟨0, _⟩ => rfl)
  rw [e3]
  exact congrArg (· + x3 (ix1 e)) (Finset.sum_congr rfl fun k _ => by rw [e1, e2])

/-- The composed index of a query read: transposed, reshaped, first third of the fused features. -/
theorem idx_q (b : Fin 4) (h : Fin 12) (l : Fin 1024) (d : Fin 64) :
    idx_main_v4 (idx_main_v7 (idx_main_v8 (ix4 b h l d))) = ix3 b l (feat 0 h d) := by
  have hb : b.val < 4 := b.isLt
  have hh : h.val < 12 := h.isLt
  have hl : l.val < 1024 := l.isLt
  have hd : d.val < 64 := d.isLt
  exact funext fun a => Fin.ext (by
    match a with
    | ⟨0, _⟩ => show (((b.val * 1024 + l.val) * 12 + h.val) * 64 + d.val) / 786432 = b.val; omega
    | ⟨1, _⟩ => show (((b.val * 1024 + l.val) * 12 + h.val) * 64 + d.val) / 768 % 1024 = l.val; omega
    | ⟨2, _⟩ => show (((b.val * 1024 + l.val) * 12 + h.val) * 64 + d.val) % 768 = 0 * 768 + h.val * 64 + d.val; omega)

/-- The composed index of a key read: the second third. -/
theorem idx_k (b : Fin 4) (h : Fin 12) (l : Fin 1024) (d : Fin 64) :
    idx_main_v5 (idx_main_v11 (idx_main_v12 (ix4 b h l d))) = ix3 b l (feat 1 h d) := by
  have hb : b.val < 4 := b.isLt
  have hh : h.val < 12 := h.isLt
  have hl : l.val < 1024 := l.isLt
  have hd : d.val < 64 := d.isLt
  exact funext fun a => Fin.ext (by
    match a with
    | ⟨0, _⟩ => show (((b.val * 1024 + l.val) * 12 + h.val) * 64 + d.val) / 786432 = b.val; omega
    | ⟨1, _⟩ => show (((b.val * 1024 + l.val) * 12 + h.val) * 64 + d.val) / 768 % 1024 = l.val; omega
    | ⟨2, _⟩ => show 768 + (((b.val * 1024 + l.val) * 12 + h.val) * 64 + d.val) % 768 = 1 * 768 + h.val * 64 + d.val; omega)

/-- The composed index of a value read: the last third. -/
theorem idx_v (b : Fin 4) (h : Fin 12) (l : Fin 1024) (d : Fin 64) :
    idx_main_v6 (idx_main_v13 (idx_main_v14 (ix4 b h l d))) = ix3 b l (feat 2 h d) := by
  have hb : b.val < 4 := b.isLt
  have hh : h.val < 12 := h.isLt
  have hl : l.val < 1024 := l.isLt
  have hd : d.val < 64 := d.isLt
  exact funext fun a => Fin.ext (by
    match a with
    | ⟨0, _⟩ => show (((b.val * 1024 + l.val) * 12 + h.val) * 64 + d.val) / 786432 = b.val; omega
    | ⟨1, _⟩ => show (((b.val * 1024 + l.val) * 12 + h.val) * 64 + d.val) / 768 % 1024 = l.val; omega
    | ⟨2, _⟩ => show 1536 + (((b.val * 1024 + l.val) * 12 + h.val) * 64 + d.val) % 768 = 2 * 768 + h.val * 64 + d.val; omega)

/-- The reference's scaled query is the specification's. -/
theorem ref_q (x0 : TX) (x2 : TW) (x3 : Tβ) : val_main_v10 (F := Ideal) x0 x2 x3 = Qarr x0 x2 x3 := by
  funext i
  obtain ⟨b, h, l, d, rfl⟩ : ∃ (b : Fin 4) (h : Fin 12) (l : Fin 1024) (d : Fin 64), i = ix4 b h l d :=
    ⟨i 0, i 1, i 2, i 3, eq_ix4 i⟩
  show val_main_v10 (F := Ideal) x0 x2 x3 (ix4 b h l d) = qAt x0 x2 x3 b h l d
  rw [val_main_v10_apply, val_main_v9_apply, val_main_cst_apply, val_main_v8_apply, val_main_v7_apply, val_main_v4_apply,
    idx_q, v3_at]
  rfl

/-- The reference's key is the specification's. -/
theorem ref_k (x0 : TX) (x2 : TW) (x3 : Tβ) : val_main_v12 (F := Ideal) x0 x2 x3 = Karr x0 x2 x3 := by
  funext i
  obtain ⟨b, h, l, d, rfl⟩ : ∃ (b : Fin 4) (h : Fin 12) (l : Fin 1024) (d : Fin 64), i = ix4 b h l d :=
    ⟨i 0, i 1, i 2, i 3, eq_ix4 i⟩
  show val_main_v12 (F := Ideal) x0 x2 x3 (ix4 b h l d) = kAt x0 x2 x3 b h l d
  rw [val_main_v12_apply, val_main_v11_apply, val_main_v5_apply, idx_k, v3_at]
  rfl

/-- The reference's value is the specification's. -/
theorem ref_v (x0 : TX) (x2 : TW) (x3 : Tβ) : val_main_v14 (F := Ideal) x0 x2 x3 = Varr x0 x2 x3 := by
  funext i
  obtain ⟨b, h, l, d, rfl⟩ : ∃ (b : Fin 4) (h : Fin 12) (l : Fin 1024) (d : Fin 64), i = ix4 b h l d :=
    ⟨i 0, i 1, i 2, i 3, eq_ix4 i⟩
  show val_main_v14 (F := Ideal) x0 x2 x3 (ix4 b h l d) = vAt x0 x2 x3 b h l d
  rw [val_main_v14_apply, val_main_v13_apply, val_main_v6_apply, idx_v, v3_at]
  rfl

/-! ## Stage 2: one head's attention, one query row at a time

  The query, key and value arrays stay opaque here: only the operations after them are read. -/

section Attention

variable (x0 : TX) (x1 : TB) (x2 : TW) (x3 : Tβ) (b : Fin 4) (h : Fin 12) (q : Fin 1024)

/-- The query's row of lanes, the key rows, and the query's row of the bias, as the specification's row functions take them. -/
local notation "QR" => (fun d' : Fin 64 => val_main_v10 (F := Ideal) x0 x2 x3 (ix4 b h q d'))
local notation "KR" => (fun (k : Fin 1024) (d' : Fin 64) => val_main_v12 (F := Ideal) x0 x2 x3 (ix4 b h k d'))
local notation "BR" => (fun k : Fin 1024 => x1 (ix4 b h q k))

/-- The biased score of the query against key k. -/
theorem v16_at (k : Fin 1024) :
    val_main_v16 (F := Ideal) x0 x1 x2 x3 (ix4 b h q k) = rowScore QR KR BR k := by
  rw [val_main_v16_apply, val_main_v15_apply, Ideal.addf_def]
  unfold rowScore
  have e1 : ∀ d' : Fin 64, lidx_main_v15 (ix4 b h q k) d' = ix4 b h q d' := fun d' => funext fun a => Fin.ext (by
    match a with
    | ⟨0, _⟩ => rfl
    | ⟨1, _⟩ => rfl
    | ⟨2, _⟩ => rfl
    | ⟨3, _⟩ => rfl)
  have e2 : ∀ d' : Fin 64, ridx_main_v15 (ix4 b h q k) d' = ix4 b h k d' := fun d' => funext fun a => Fin.ext (by
    match a with
    | ⟨0, _⟩ => rfl
    | ⟨1, _⟩ => rfl
    | ⟨2, _⟩ => rfl
    | ⟨3, _⟩ => rfl)
  exact congrArg (· + x1 (ix4 b h q k)) (Finset.sum_congr rfl fun d' _ => by rw [e1, e2])

/-- The row index (b, h, q) with key k put back on the reduced axis is (b, h, q, k). -/
theorem lift_ix4 (hR : S4x12x1024x1024.Reduces [3] S4x12x1024) (k : Fin (S4x12x1024x1024.size 3)) :
    hR.lift (ix3 b h q) k = ix4 b h q (⟨k.val, k.isLt⟩ : Fin 1024) := by
  funext c; apply Fin.ext
  fin_cases c <;> rfl

/-- A max-reduce over the last axis of any score array, from -∞, read at row (b, h, q): the fold of max over that row. -/
theorem hostMax_at (y : S4x12x1024x1024.Idx → Ideal .f32) :
    Host.reduce (FloatOps.maximumf (F := Ideal) (φ := .f32)) y (val_main_cst_0 (F := Ideal))
        reducesTo_S4x12x1024x1024_S4x12x1024_d3 h_S_ (ix3 b h q)
      = (Finset.univ : Finset (Fin 1024)).fold max negInf (fun k => y (ix4 b h q k)) := by
  have hR : S4x12x1024x1024.Reduces [3] S4x12x1024 := by decide
  have e := Host.reduce_eq_fold_single (α := Ideal .f32) (FloatOps.maximumf (F := Ideal) (φ := .f32)) y (val_main_cst_0 (F := Ideal))
    reducesTo_S4x12x1024x1024_S4x12x1024_d3 hR h_S_ (ix3 b h q)
  refine e.trans ?_
  have hf : (y ∘ hR.lift (ix3 b h q)) = fun k : Fin 1024 => y (ix4 b h q k) :=
    funext fun k => congrArg y (lift_ix4 b h q hR k)
  rw [hf]
  rfl

/-- The max-reduce over the keys, from -∞, is the fold of max over the row of scores. -/
theorem v17_at :
    val_main_v17 (F := Ideal) x0 x1 x2 x3 (ix3 b h q)
      = (Finset.univ : Finset (Fin 1024)).fold max negInf (fun k => val_main_v16 (F := Ideal) x0 x1 x2 x3 (ix4 b h q k)) := by
  unfold val_main_v17
  exact hostMax_at b h q (val_main_v16 (F := Ideal) x0 x1 x2 x3)

/-- The row maximum, taken once more against -∞. -/
theorem v19_at :
    val_main_v19 (F := Ideal) x0 x1 x2 x3 (ix3 b h q) = rowMax QR KR BR := by
  rw [val_main_v19_apply, val_main_v18_apply, val_main_cst_1_apply, v17_at, Ideal.maximumf_def, Ideal.ofBits_def]
  have hs : (fun k : Fin 1024 => val_main_v16 (F := Ideal) x0 x1 x2 x3 (ix4 b h q k)) = fun k => rowScore QR KR BR k :=
    funext fun k => v16_at x0 x1 x2 x3 b h q k
  rw [hs]
  rfl

/-- The softmax numerator at key k. -/
theorem v23_at (k : Fin 1024) :
    val_main_v23 (F := Ideal) x0 x1 x2 x3 (ix4 b h q k) = rowExp QR KR BR k := by
  rw [val_main_v23_apply, val_main_v22_apply, val_main_v21_apply, val_main_v20_apply]
  have e : idx_main_v20 (idx_main_v21 (ix4 b h q k)) = ix3 b h q := funext fun a => Fin.ext (by
    match a with
    | ⟨0, _⟩ => rfl
    | ⟨1, _⟩ => rfl
    | ⟨2, _⟩ => rfl)
  rw [e, v19_at, v16_at, Ideal.hostUnary_exp_def, Ideal.subf_def]
  rfl

/-- The softmax denominator: the row sum of the numerators, from 0. -/
theorem v24_at :
    val_main_v24 (F := Ideal) x0 x1 x2 x3 (ix3 b h q) = rowDen QR KR BR := by
  rw [val_main_v24_apply, val_main_cst_2_apply, Ideal.ofBits_def, Ideal.ofBits_zero_f32, zero_add]
  unfold rowDen
  refine Finset.sum_congr rfl fun k _ => ?_
  have e : idx_main_v24 (ix3 b h q) k = ix4 b h q k := funext fun a => Fin.ext (by
    match a with
    | ⟨0, _⟩ => rfl
    | ⟨1, _⟩ => rfl
    | ⟨2, _⟩ => rfl
    | ⟨3, _⟩ => rfl)
  rw [e, v23_at]

/-- The probability at key k. -/
theorem v27_at (k : Fin 1024) :
    val_main_v27 (F := Ideal) x0 x1 x2 x3 (ix4 b h q k) = rowProb QR KR BR k := by
  rw [val_main_v27_apply, val_main_v26_apply, val_main_v25_apply]
  have e : idx_main_v25 (idx_main_v26 (ix4 b h q k)) = ix3 b h q := funext fun a => Fin.ext (by
    match a with
    | ⟨0, _⟩ => rfl
    | ⟨1, _⟩ => rfl
    | ⟨2, _⟩ => rfl)
  rw [e, v24_at, v23_at, Ideal.hostDivf_def]
  rfl

/-- Lane d of the head's output for this query. -/
theorem v28_at (d : Fin 64) :
    val_main_v28 (F := Ideal) x0 x1 x2 x3 (ix4 b h q d)
      = attnAt (val_main_v10 (F := Ideal) x0 x2 x3) (val_main_v12 (F := Ideal) x0 x2 x3) (val_main_v14 (F := Ideal) x0 x2 x3) x1 b h q d := by
  rw [val_main_v28_apply]
  unfold attnAt headRow
  refine Finset.sum_congr rfl fun k _ => ?_
  have e1 : lidx_main_v28 (ix4 b h q d) k = ix4 b h q k := funext fun a => Fin.ext (by
    match a with
    | ⟨0, _⟩ => rfl
    | ⟨1, _⟩ => rfl
    | ⟨2, _⟩ => rfl
    | ⟨3, _⟩ => rfl)
  have e2 : ridx_main_v28 (ix4 b h q d) k = ix4 b h k d := funext fun a => Fin.ext (by
    match a with
    | ⟨0, _⟩ => rfl
    | ⟨1, _⟩ => rfl
    | ⟨2, _⟩ => rfl
    | ⟨3, _⟩ => rfl)
  rw [e1, e2, v27_at]

end Attention

/-- The reference's attention output is the specification's, over the reference's own query, key and value arrays. -/
theorem ref_o (x0 : TX) (x1 : TB) (x2 : TW) (x3 : Tβ) :
    val_main_v28 (F := Ideal) x0 x1 x2 x3
      = Oarr (val_main_v10 (F := Ideal) x0 x2 x3) (val_main_v12 (F := Ideal) x0 x2 x3) (val_main_v14 (F := Ideal) x0 x2 x3) x1 := by
  funext i
  obtain ⟨b, h, q, d, rfl⟩ : ∃ (b : Fin 4) (h : Fin 12) (q : Fin 1024) (d : Fin 64), i = ix4 b h q d :=
    ⟨i 0, i 1, i 2, i 3, eq_ix4 i⟩
  exact v28_at x0 x1 x2 x3 b h q d

/-! ## Stage 3: the output projection -/

/-- The composed index of a merged-heads read: feature k of token (b, l) is lane k % 64 of head k / 64. -/
theorem idx_o (b : Fin 4) (l : Fin 1024) (e : Fin 768) (k : Fin 768) :
    idx_main_v29 (idx_main_v30 (lidx_main_v31 (ix3 b l e) k)) = ix4 b (headOf k) l (laneOf k) := by
  have hb : b.val < 4 := b.isLt
  have hl : l.val < 1024 := l.isLt
  have hk : k.val < 768 := k.isLt
  exact funext fun a => Fin.ext (by
    match a with
    | ⟨0, _⟩ => show ((b.val * 1024 + l.val) * 768 + k.val) / 786432 = b.val; omega
    | ⟨1, _⟩ => show ((b.val * 1024 + l.val) * 768 + k.val) / 64 % 12 = k.val / 64; omega
    | ⟨2, _⟩ => show ((b.val * 1024 + l.val) * 768 + k.val) / 768 % 1024 = l.val; omega
    | ⟨3, _⟩ => show ((b.val * 1024 + l.val) * 768 + k.val) % 64 = k.val % 64; omega)

/-- The output projection at token (b, l), feature e, over the reference's own attention output. -/
theorem v34_at (x0 : TX) (x1 : TB) (x2 : TW) (x3 : Tβ) (x4 : TWo) (x5 : Tβo) (b : Fin 4) (l : Fin 1024) (e : Fin 768) :
    val_main_v34 (F := Ideal) x0 x1 x2 x3 x4 x5 (ix3 b l e) = outAt (val_main_v28 (F := Ideal) x0 x1 x2 x3) x4 x5 b l e := by
  rw [val_main_v34_apply, val_main_v31_apply, val_main_v33_apply, val_main_v32_apply, Ideal.addf_def]
  unfold outAt dotRow
  have e2 : ∀ k : Fin 768, ridx_main_v31 (ix3 b l e) k = ix2 e k := fun k => funext fun a => Fin.ext (by
    match a with
    | ⟨0, _⟩ => rfl
    | ⟨1, _⟩ => rfl)
  have e3 : idx_main_v32 (idx_main_v33 (ix3 b l e)) = ix1 e := funext fun a => Fin.ext (by
    match a with
    | ⟨0, _⟩ => rfl)
  rw [e3]
  exact congrArg (· + x5 (ix1 e)) (Finset.sum_congr rfl fun k _ => by
    rw [val_main_v30_apply, val_main_v29_apply, idx_o, e2])

/-- The reference's result is the specification's output projection of the reference's own attention output. -/
theorem ref_y (x0 : TX) (x1 : TB) (x2 : TW) (x3 : Tβ) (x4 : TWo) (x5 : Tβo) :
    val_main_v34 (F := Ideal) x0 x1 x2 x3 x4 x5 = Yarr (val_main_v28 (F := Ideal) x0 x1 x2 x3) x4 x5 := by
  funext i
  obtain ⟨b, l, e, rfl⟩ : ∃ (b : Fin 4) (l : Fin 1024) (e : Fin 768), i = ix3 b l e := ⟨i 0, i 1, i 2, eq_ix3 i⟩
  exact v34_at x0 x1 x2 x3 x4 x5 b l e

/-! ## The whole layer -/

/-- The reference program computes the layer. -/
theorem ref_layer (x0 : TX) (x1 : TB) (x2 : TW) (x3 : Tβ) (x4 : TWo) (x5 : Tβo) :
    val_main_v34 (F := Ideal) x0 x1 x2 x3 x4 x5 = layer x0 x1 x2 x3 x4 x5 := by
  rw [ref_y, ref_o, ref_q, ref_k, ref_v]
  rfl

end Cert.MHA.Ref

end
-- ==== Proof.KernelRun.lean ====
/-
  The idealized kernel's run with its result array named.

  The program is three kernel regions in sequence. The buffer contents at each region boundary are a fold from the launch
  memory: after a region, each of its output arrays holds what its grid points wrote back and every other buffer what it held
  before. The run below is the three regions' run, stated with the final contents of the result buffer kept in the
  postcondition (the fold's last stage read at that buffer) next to the unchanged arguments.
-/
import proofs.«117631_j45681272160319_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the three regions terminates without a fault; the result buffer ends at the last
    boundary's contents and the six argument arrays end as launched. -/
theorem run_result : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Result

end
-- ==== Proof.QkvBody.lean ====
/-
  What the fused-projection kernel's body stores, read at an index.

  The body receives 512 consecutive tokens of one batch entry (block [1, 512, 768]), the whole fused weight matrix
  [2304, 768] and the whole bias. It forms the [512, 2304] product with the transposed weights plus the bias, cuts it into
  three column bands of 768 features (query, key, value), scales the query band by 1/8, and re-lays each band
  [512, 768] → [512, 12, 64] → [12, 512, 64] → [1, 12, 512, 64]: head h, token r, lane d of a band is column h · 64 + d of
  the band at row r. So each stored element is one dot product of a token's row with a weight row, plus a bias entry.
-/
import proofs.«117631_j45681272160319_1_alg».proof.Proof.Gen.KernelIdeal.Skeleton
import proofs.«117631_j45681272160319_1_alg».proof.Proof.Spec
import Idealize.ShloMosaic.Lib.ValueIdx
import Idealize.ShloMosaic.Lib.Pipeline.Value
import Idealize.ShloMosaic.PureOps.Ideal.Laws

noncomputable section

namespace Cert.MHA.QkvBody

open Cert.KernelIdeal Cert.MHA Idealize.ShloMosaic Idealize.ShloMosaic.ValueIdx
open Cert.KernelIdeal.Facts₀

/-- The operand indices of the product at an output index: the row of the left operand and the row of the right one. -/
theorem lhs_row (i : S512x2304.Idx) (q : dot_S512x768_S2304x768_S512x2304_1_1_0_0_n_n.contr.Idx) :
    (dot_S512x768_S2304x768_S512x2304_1_1_0_0_n_n.lhsIdx i q 0).val = (i 0).val := by
  unfold DotDims.lhsIdx
  rw [dif_neg (show ¬(0 : Fin S512x768.rank) ∈ dot_S512x768_S2304x768_S512x2304_1_1_0_0_n_n.lhsBatch by decide), dif_pos (show (0 : Fin S512x768.rank) ∈ dot_S512x768_S2304x768_S512x2304_1_1_0_0_n_n.lhsNonContracting by decide)]
  rfl
theorem rhs_row (i : S512x2304.Idx) (q : dot_S512x768_S2304x768_S512x2304_1_1_0_0_n_n.contr.Idx) :
    (dot_S512x768_S2304x768_S512x2304_1_1_0_0_n_n.rhsIdx i q 0).val = (i 1).val := by
  unfold DotDims.rhsIdx
  rw [dif_neg (show ¬(0 : Fin S2304x768.rank) ∈ dot_S512x768_S2304x768_S512x2304_1_1_0_0_n_n.rhsBatch by decide), dif_pos (show (0 : Fin S2304x768.rank) ∈ dot_S512x768_S2304x768_S512x2304_1_1_0_0_n_n.rhsNonContracting by decide)]
  rfl

/-- The product of the token block with the transposed weights, accumulated from zero, at (r, e): the sum over the
    768 input features. -/
theorem matmul_at (a : FVec Ideal S512x768 .bf16) (b : FVec Ideal S2304x768 .bf16) (r : Fin 512) (e : Fin 2304) :
    matmul dot_S512x768_S2304x768_S512x2304_1_1_0_0_n_n none a b (constant (F := Ideal) S512x2304 .f32 0x00000000#32) (ix2 r e)
      = ∑ k : Fin 768, a (ix2 r k) * b (ix2 e k) := by
  simp only [matmul]
  rw [Ideal.matmul_constant_zero_apply, ← Equiv.sum_comp (contrEquiv1 dot_S512x768_S2304x768_S512x2304_1_1_0_0_n_n 768 rfl rfl).symm]
  refine Finset.sum_congr rfl fun k _ => ?_
  have hk := contrEquiv1_symm_val dot_S512x768_S2304x768_S512x2304_1_1_0_0_n_n 768 rfl rfl k
  have el : dot_S512x768_S2304x768_S512x2304_1_1_0_0_n_n.lhsIdx (ix2 r e) ((contrEquiv1 dot_S512x768_S2304x768_S512x2304_1_1_0_0_n_n 768 rfl rfl).symm k) = ix2 r k :=
    funext fun a => Fin.ext (by
      match a with
      | ⟨0, _⟩ => exact lhs_row _ _
      | ⟨1, _⟩ => exact (dot_S512x768_S2304x768_S512x2304_1_1_0_0_n_n.lhsIdx_val_of_single rfl _ _).trans hk)
  have er : dot_S512x768_S2304x768_S512x2304_1_1_0_0_n_n.rhsIdx (ix2 r e) ((contrEquiv1 dot_S512x768_S2304x768_S512x2304_1_1_0_0_n_n 768 rfl rfl).symm k) = ix2 e k :=
    funext fun a => Fin.ext (by
      match a with
      | ⟨0, _⟩ => exact rhs_row _ _
      | ⟨1, _⟩ => exact (dot_S512x768_S2304x768_S512x2304_1_1_0_0_n_n.rhsIdx_val_of_single rfl _ _).trans hk)
  rw [el, er]

/-- The bias as a one-row matrix repeated down the 512 rows: at (r, e) it is β[e]. -/
theorem bias_at (β : Vec Ideal S2304 .f32) (r : Fin 512) (e : Fin 2304) :
    broadcastTo S512x2304 (shapeCast S1x2304 β shapeCasts_S2304_S1x2304) broadcasts_S1x2304_S512x2304 (ix2 r e) = β (ix1 e) := by
  refine (broadcastTo_apply _ broadcasts_S1x2304_S512x2304 (ix2 r e) (ix2 (0 : Fin 1) e)
    (fun a => match a with
      | ⟨0, _⟩ => by show 0 = if (1 : Nat) = 1 then 0 else r.val; rw [if_pos rfl]
      | ⟨1, _⟩ => by show e.val = if (2304 : Nat) = 1 then 0 else e.val; rw [if_neg (by decide)])).trans ?_
  refine shapeCast_apply β shapeCasts_S2304_S1x2304 (ix2 (0 : Fin 1) e) (ix1 e) ?_
  rw [Shape.rowMajor_val_one, Shape.rowMajor_val_two]
  show e.val = 0 * 2304 + e.val
  omega

/-- THE FUSED PROJECTION AT (r, e): the dot product of token r's row with weight row e, plus β[e]. -/
theorem proj_at (x : Vec Ideal S1x512x768 .f32) (w : Vec Ideal S2304x768 .f32) (β : Vec Ideal S2304 .f32)
    (r : Fin 512) (e : Fin 2304) :
    Gen.k0_pay1 (F := Ideal) x w β (ix2 r e)
      = dotRow (fun k => x (ix3 0 r k)) (fun k => w (ix2 e k)) (β (ix1 e)) := by
  have hr : r.val < 512 := r.isLt
  unfold Gen.k0_pay1 dotRow
  refine congrArg₂ (· + ·) ?_ (bias_at β r e)
  refine (matmul_at _ _ r e).trans ?_
  refine Finset.sum_congr rfl fun k _ => ?_
  refine congrArg (· * w (ix2 e k)) ?_
  refine shapeCast_apply x shapeCasts_S1x512x768_S512x768 (ix2 r k) (ix3 (0 : Fin 1) r k) ?_
  rw [Shape.rowMajor_val_three, Shape.rowMajor_val_two]
  show (0 * 512 + r.val) * 768 + k.val = r.val * 768 + k.val
  omega

/-- Column h · 64 + d of a 768-column band. -/
def col (h : Fin 12) (d : Fin 64) : Fin 768 := ⟨h.val * 64 + d.val, by have := h.isLt; have := d.isLt; omega⟩

/-- Re-laying a band [512, 768] as [1, 12, 512, 64]: head h, token r, lane d is column h · 64 + d at row r. -/
theorem heads_at (y : FVec Ideal S512x768 .f32) (z : Fin 1) (h : Fin 12) (r : Fin 512) (d : Fin 64) :
    shapeCast S1x12x512x64 (transpose S12x512x64 [1, 0, 2] (shapeCast S512x12x64 y shapeCasts_S512x768_S512x12x64)
        transposes_S512x12x64_p1_0_2_S12x512x64) shapeCasts_S12x512x64_S1x12x512x64 (ix4 z h r d)
      = y (ix2 r (col h d)) := by
  have hz : z.val = 0 := by have := z.isLt; omega
  have hh : h.val < 12 := h.isLt
  have hr : r.val < 512 := r.isLt
  have hd : d.val < 64 := d.isLt
  refine (shapeCast_apply _ shapeCasts_S12x512x64_S1x12x512x64 (ix4 z h r d) (ix3 h r d) ?_).trans ?_
  · rw [Shape.rowMajor_val_three, Shape.rowMajor_val_four]
    show (h.val * 512 + r.val) * 64 + d.val = ((z.val * 12 + h.val) * 512 + r.val) * 64 + d.val
    rw [hz]; omega
  refine (transpose_apply [1, 0, 2] _ transposes_S512x12x64_p1_0_2_S12x512x64 (ix3 h r d) (ix3 r h d)
    (fun b => match b with | ⟨0, _⟩ => rfl | ⟨1, _⟩ => rfl | ⟨2, _⟩ => rfl)).trans ?_
  refine shapeCast_apply y shapeCasts_S512x768_S512x12x64 (ix3 r h d) (ix2 r (col h d)) ?_
  rw [Shape.rowMajor_val_two, Shape.rowMajor_val_three]
  show r.val * 768 + (h.val * 64 + d.val) = (r.val * 12 + h.val) * 64 + d.val
  omega

/-- THE QUERY PAYLOAD: the first band, scaled by 1/8. -/
theorem q_payload (x : Vec Ideal S1x512x768 .f32) (w : Vec Ideal S2304x768 .f32) (β : Vec Ideal S2304 .f32)
    (z : Fin 1) (h : Fin 12) (r : Fin 512) (d : Fin 64) :
    Gen.k0_pay2 (F := Ideal) x w β (ix4 z h r d)
      = dotRow (fun k => x (ix3 0 r k)) (fun k => w (ix2 (feat 0 h d) k)) (β (ix1 (feat 0 h d))) * scale := by
  unfold Gen.k0_pay2
  refine (heads_at _ z h r d).trans ?_
  refine congrArg (· * scale) ?_
  refine (extractStridedSlice_apply ![0, 0] _ slices_S512x2304_o0_0_S512x768 (ix2 r (col h d)) (ix2 r (feat 0 h d))
    (fun a => match a with
      | ⟨0, _⟩ => by show r.val = 0 + r.val; omega
      | ⟨1, _⟩ => by show 0 * 768 + h.val * 64 + d.val = 0 + (h.val * 64 + d.val); omega)).trans ?_
  exact proj_at x w β r (feat 0 h d)

/-- THE KEY PAYLOAD: the second band. -/
theorem k_payload (x : Vec Ideal S1x512x768 .f32) (w : Vec Ideal S2304x768 .f32) (β : Vec Ideal S2304 .f32)
    (z : Fin 1) (h : Fin 12) (r : Fin 512) (d : Fin 64) :
    Gen.k0_pay3 (F := Ideal) x w β (ix4 z h r d)
      = dotRow (fun k => x (ix3 0 r k)) (fun k => w (ix2 (feat 1 h d) k)) (β (ix1 (feat 1 h d))) := by
  unfold Gen.k0_pay3
  refine (heads_at _ z h r d).trans ?_
  refine (extractStridedSlice_apply ![0, 768] _ slices_S512x2304_o0_768_S512x768 (ix2 r (col h d)) (ix2 r (feat 1 h d))
    (fun a => match a with
      | ⟨0, _⟩ => by show r.val = 0 + r.val; omega
      | ⟨1, _⟩ => by show 1 * 768 + h.val * 64 + d.val = 768 + (h.val * 64 + d.val); omega)).trans ?_
  exact proj_at x w β r (feat 1 h d)

/-- THE VALUE PAYLOAD: the third band. -/
theorem v_payload (x : Vec Ideal S1x512x768 .f32) (w : Vec Ideal S2304x768 .f32) (β : Vec Ideal S2304 .f32)
    (z : Fin 1) (h : Fin 12) (r : Fin 512) (d : Fin 64) :
    Gen.k0_pay4 (F := Ideal) x w β (ix4 z h r d)
      = dotRow (fun k => x (ix3 0 r k)) (fun k => w (ix2 (feat 2 h d) k)) (β (ix1 (feat 2 h d))) := by
  unfold Gen.k0_pay4
  refine (heads_at _ z h r d).trans ?_
  refine (extractStridedSlice_apply ![0, 1536] _ slices_S512x2304_o0_1536_S512x768 (ix2 r (col h d)) (ix2 r (feat 2 h d))
    (fun a => match a with
      | ⟨0, _⟩ => by show r.val = 0 + r.val; omega
      | ⟨1, _⟩ => by show 2 * 768 + h.val * 64 + d.val = 1536 + (h.val * 64 + d.val); omega)).trans ?_
  exact proj_at x w β r (feat 2 h d)

end Cert.MHA.QkvBody

end
-- ==== Proof.SpecAt.lean ====
/-
  The whole-array functions of the specification read at an index whose coordinates are known as numbers.
-/
import proofs.«117631_j45681272160319_1_alg».proof.Proof.Spec

noncomputable section

namespace Cert.MHA

open Idealize.ShloMosaic Idealize.ShloMosaic.ValueIdx

theorem hd_idx_eq (i : Hd.Idx) (b : Fin 4) (h : Fin 12) (l : Fin 1024) (d : Fin 64)
    (h0 : (i 0).val = b.val) (h1 : (i 1).val = h.val) (h2 : (i 2).val = l.val) (h3 : (i 3).val = d.val) : i = ix4 b h l d :=
  funext fun a => Fin.ext (by
    match a with
    | ⟨0, _⟩ => exact h0
    | ⟨1, _⟩ => exact h1
    | ⟨2, _⟩ => exact h2
    | ⟨3, _⟩ => exact h3)

theorem tok_idx_eq (i : Tok.Idx) (b : Fin 4) (l : Fin 1024) (e : Fin 768)
    (h0 : (i 0).val = b.val) (h1 : (i 1).val = l.val) (h2 : (i 2).val = e.val) : i = ix3 b l e :=
  funext fun a => Fin.ext (by
    match a with
    | ⟨0, _⟩ => exact h0
    | ⟨1, _⟩ => exact h1
    | ⟨2, _⟩ => exact h2)

theorem Qarr_at (x : Tok.Idx → EReal) (w : WIn.Idx → EReal) (β : BIn.Idx → EReal) (i : Hd.Idx) (b : Fin 4) (h : Fin 12)
    (l : Fin 1024) (d : Fin 64) (h0 : (i 0).val = b.val) (h1 : (i 1).val = h.val) (h2 : (i 2).val = l.val)
    (h3 : (i 3).val = d.val) : Qarr x w β i = qAt x w β b h l d := by
  rw [hd_idx_eq i b h l d h0 h1 h2 h3]; rfl

theorem Karr_at (x : Tok.Idx → EReal) (w : WIn.Idx → EReal) (β : BIn.Idx → EReal) (i : Hd.Idx) (b : Fin 4) (h : Fin 12)
    (l : Fin 1024) (d : Fin 64) (h0 : (i 0).val = b.val) (h1 : (i 1).val = h.val) (h2 : (i 2).val = l.val)
    (h3 : (i 3).val = d.val) : Karr x w β i = kAt x w β b h l d := by
  rw [hd_idx_eq i b h l d h0 h1 h2 h3]; rfl

theorem Varr_at (x : Tok.Idx → EReal) (w : WIn.Idx → EReal) (β : BIn.Idx → EReal) (i : Hd.Idx) (b : Fin 4) (h : Fin 12)
    (l : Fin 1024) (d : Fin 64) (h0 : (i 0).val = b.val) (h1 : (i 1).val = h.val) (h2 : (i 2).val = l.val)
    (h3 : (i 3).val = d.val) : Varr x w β i = vAt x w β b h l d := by
  rw [hd_idx_eq i b h l d h0 h1 h2 h3]; rfl

theorem Oarr_at (Q K V : Hd.Idx → EReal) (B : Sc.Idx → EReal) (i : Hd.Idx) (b : Fin 4) (h : Fin 12)
    (l : Fin 1024) (d : Fin 64) (h0 : (i 0).val = b.val) (h1 : (i 1).val = h.val) (h2 : (i 2).val = l.val)
    (h3 : (i 3).val = d.val) : Oarr Q K V B i = attnAt Q K V B b h l d := by
  rw [hd_idx_eq i b h l d h0 h1 h2 h3]; rfl

theorem Yarr_at (O : Hd.Idx → EReal) (w : WOut.Idx → EReal) (β : BOut.Idx → EReal) (i : Tok.Idx) (b : Fin 4)
    (l : Fin 1024) (e : Fin 768) (h0 : (i 0).val = b.val) (h1 : (i 1).val = l.val) (h2 : (i 2).val = e.val) :
    Yarr O w β i = outAt O w β b l e := by
  rw [tok_idx_eq i b l e h0 h1 h2]; rfl

end Cert.MHA

end
-- ==== Proof.QkvArray.lean ====
/-
  The fused-projection region: from blocks to the three whole arrays Q, K, V.

  The region's grid is 4 × 2: point (b, l) takes the tokens l · 512 … l · 512 + 511 of batch entry b (block [1, 512, 768]
  of the input at block index (b, l, 0)), the whole fused weight matrix and bias, and writes block [1, 12, 512, 64] of each
  of the three outputs at block index (b, 0, l, 0). What a point writes is the specification's array of the inputs the
  region finds, read through that block; the eight blocks tile each output, so each output array is the specification's.
-/
import proofs.«117631_j45681272160319_1_alg».proof.Proof.Gen.KernelIdeal.Frame
import proofs.«117631_j45681272160319_1_alg».proof.Proof.QkvBody
import proofs.«117631_j45681272160319_1_alg».proof.Proof.SpecAt
import Idealize.ShloMosaic.Lib.Pipeline.Value

set_option maxRecDepth 16384

noncomputable section

namespace Cert.MHA.QkvArray

open Cert.KernelIdeal Cert.KernelIdeal.Gen Cert.MHA Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The scaled queries (output window 3) -/

/-- The block indices over the grid: the input block follows the output block (batch entry and token tile), the weights and
    the bias are one block each, and the output block spans all heads and lanes. -/
theorem q_idx_facts : ∀ t : Fin cfg0.N,
    win0_0.index t (0 : Fin 3) = win0_3.index t (0 : Fin 4) ∧ win0_0.index t (1 : Fin 3) = win0_3.index t (2 : Fin 4)
    ∧ win0_0.index t (2 : Fin 3) = 0
    ∧ win0_1.index t (0 : Fin 2) = 0 ∧ win0_1.index t (1 : Fin 2) = 0 ∧ win0_2.index t (0 : Fin 1) = 0
    ∧ win0_3.index t (1 : Fin 4) = 0 ∧ win0_3.index t (3 : Fin 4) = 0
    ∧ win0_3.index t (0 : Fin 4) ≤ 3 ∧ win0_3.index t (2 : Fin 4) ≤ 1 :=
  (by decide +kernel : ∀ t : Fin grid0.N, _)

/-- Every (batch entry, token tile) pair is some grid point's output block. -/
theorem q_idx_onto : ∀ (q0 : Fin 4) (q1 : Fin 2), ∃ t : Fin cfg0.N, win0_3.index t = ![q0.val, 0, q1.val, 0] :=
  (by decide +kernel : ∀ (q0 : Fin 4) (q1 : Fin 2), ∃ t : Fin grid0.N, win0_3.index t = ![q0.val, 0, q1.val, 0])

/-- WHAT POINT `t` WRITES BACK is block `t` of the specification's array of the inputs the region finds. -/
theorem q_flushed_eq (c : Dev nD) (t : Fin cfg0.N) :
    (dat0 V c).flushed 3 t = ((cfg0.win 3).blk t).view.read (Elt Ideal) (Qarr (V c main_arg0) (V c main_arg2) (V c main_arg3)) := by
  show (cfg0.win 3).cut (grid0.coords t) ((dat0 V c).after 3 t) = _
  rw [after0_3]
  unfold out0_3
  rw [View.canon_unit_zero hz4]
  simp only [View.ld_unit_zero (S := S1x512x768) hz3, View.ld_unit_zero (S := S2304x768) hz2, View.ld_unit_zero (S := S2304) hz1]
  obtain ⟨e0, e1, e2, e3, e4, e5, e6, e7, e8, e9⟩ := q_idx_facts t
  funext j
  obtain ⟨z, h, r, d, rfl⟩ : ∃ (z : Fin 1) (h : Fin 12) (r : Fin 512) (d : Fin 64), j = ix4 z h r d :=
    ⟨j 0, j 1, j 2, j 3, eq_ix4 j⟩
  have hz : z.val = 0 := by have := z.isLt; omega
  have hh : h.val < 12 := h.isLt
  have hr : r.val < 512 := r.isLt
  have hd : d.val < 64 := d.isLt
  show Gen.k0_pay2 (iblk0 V c 0 t) (iblk0 V c 1 t) (iblk0 V c 2 t) (ix4 z h r d)
    = Qarr (V c main_arg0) (V c main_arg2) (V c main_arg3) (((cfg0.win 3).blk t).view.emb (ix4 z h r d))
  refine (QkvBody.q_payload (iblk0 V c 0 t) (iblk0 V c 1 t) (iblk0 V c 2 t) z h r d).trans ?_
  refine Eq.trans ?_ (Qarr_at (V c main_arg0) (V c main_arg2) (V c main_arg3) (((cfg0.win 3).blk t).view.emb (ix4 z h r d))
    ⟨win0_3.index t (0 : Fin 4), by omega⟩ h ⟨win0_3.index t (2 : Fin 4) * 512 + r.val, by omega⟩ d ?_ ?_ ?_ ?_).symm
  · unfold qAt proj
    refine congrArg (· * scale) ?_
    refine congr (congr (congrArg dotRow (funext fun k => ?_)) (funext fun k => ?_)) ?_
    · show V c main_arg0 (((cfg0.win 0).blk t).view.emb (ix3 0 r k)) = _
      refine congrArg (V c main_arg0) (funext fun a => Fin.ext ?_)
      match a with
      | ⟨0, _⟩ => show win0_0.index t (0 : Fin 3) * 1 + 1 * 0 = win0_3.index t (0 : Fin 4); omega
      | ⟨1, _⟩ => show win0_0.index t (1 : Fin 3) * 512 + 1 * r.val = win0_3.index t (2 : Fin 4) * 512 + r.val; omega
      | ⟨2, _⟩ => show win0_0.index t (2 : Fin 3) * 768 + 1 * k.val = k.val; omega
    · show V c main_arg2 (((cfg0.win 1).blk t).view.emb (ix2 (feat 0 h d) k)) = _
      refine congrArg (V c main_arg2) (funext fun a => Fin.ext ?_)
      match a with
      | ⟨0, _⟩ => show win0_1.index t (0 : Fin 2) * 2304 + 1 * (feat 0 h d).val = (feat 0 h d).val; omega
      | ⟨1, _⟩ => show win0_1.index t (1 : Fin 2) * 768 + 1 * k.val = k.val; omega
    · show V c main_arg3 (((cfg0.win 2).blk t).view.emb (ix1 (feat 0 h d))) = _
      refine congrArg (V c main_arg3) (funext fun a => Fin.ext ?_)
      match a with
      | ⟨0, _⟩ => show win0_2.index t (0 : Fin 1) * 2304 + 1 * (feat 0 h d).val = (feat 0 h d).val; omega
  · show win0_3.index t (0 : Fin 4) * 1 + 1 * z.val = win0_3.index t (0 : Fin 4); omega
  · show win0_3.index t (1 : Fin 4) * 12 + 1 * h.val = h.val; omega
  · show win0_3.index t (2 : Fin 4) * 512 + 1 * r.val = win0_3.index t (2 : Fin 4) * 512 + r.val; omega
  · show win0_3.index t (3 : Fin 4) * 64 + 1 * d.val = d.val; omega

/-- An index of the output array is in point `t`'s block iff each coordinate is in the block's range on its axis. -/
theorem q_mem_blk (t : Fin cfg0.N) (i : S4x12x1024x64.Idx) :
    i ∈ ((cfg0.win 3).blk t).view.set ↔ ∀ a : Fin 4, win0_3.index t a * S1x12x512x64.size a ≤ (i a).val ∧ (i a).val < win0_3.index t a * S1x12x512x64.size a + S1x12x512x64.size a := by
  show i ∈ ((View.whole main_v0_0).slice (win0_3.rect t)).set ↔ _
  rw [View.set_slice_whole, Rect.mem_set_unit]
  exact Iff.rfl

/-- The eight blocks tile the output: position l of batch entry b lies in the block of point (b, l / 512). -/
theorem q_cover (i : S4x12x1024x64.Idx) : ∃ t : Fin cfg0.N, (cfg0.win 3).flush t = true ∧ i ∈ ((cfg0.win 3).blk t).view.set := by
  have hi0 : (i 0).val < 4 := (i 0).isLt
  have hi1 : (i 1).val < 12 := (i 1).isLt
  have hi2 : (i 2).val < 1024 := (i 2).isLt
  have hi3 : (i 3).val < 64 := (i 3).isLt
  obtain ⟨t, ht⟩ := q_idx_onto ⟨(i 0).val, by omega⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [q_mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 12 ≤ (i 1).val ∧ (i 1).val < win0_3.index t (1 : Fin 4) * 12 + 12; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- THE OUTPUT ARRAY after the region: the specification's scaled queries of the inputs the region finds. -/
theorem q_result (c : Dev nD) : (dat0 V c).arrAt 3 cfg0.N = Qarr (V c main_arg0) (V c main_arg2) (V c main_arg3) :=
  (dat0 V c).arrAt_eq_of_cover 3 (Qarr (V c main_arg0) (V c main_arg2) (V c main_arg3)) (fun t _ => q_flushed_eq V c t) q_cover

/-! ## The keys (output window 4) -/

/-- The block indices over the grid: the input block follows the output block (batch entry and token tile), the weights and
    the bias are one block each, and the output block spans all heads and lanes. -/
theorem k_idx_facts : ∀ t : Fin cfg0.N,
    win0_0.index t (0 : Fin 3) = win0_4.index t (0 : Fin 4) ∧ win0_0.index t (1 : Fin 3) = win0_4.index t (2 : Fin 4)
    ∧ win0_0.index t (2 : Fin 3) = 0
    ∧ win0_1.index t (0 : Fin 2) = 0 ∧ win0_1.index t (1 : Fin 2) = 0 ∧ win0_2.index t (0 : Fin 1) = 0
    ∧ win0_4.index t (1 : Fin 4) = 0 ∧ win0_4.index t (3 : Fin 4) = 0
    ∧ win0_4.index t (0 : Fin 4) ≤ 3 ∧ win0_4.index t (2 : Fin 4) ≤ 1 :=
  (by decide +kernel : ∀ t : Fin grid0.N, _)

/-- Every (batch entry, token tile) pair is some grid point's output block. -/
theorem k_idx_onto : ∀ (q0 : Fin 4) (q1 : Fin 2), ∃ t : Fin cfg0.N, win0_4.index t = ![q0.val, 0, q1.val, 0] :=
  (by decide +kernel : ∀ (q0 : Fin 4) (q1 : Fin 2), ∃ t : Fin grid0.N, win0_4.index t = ![q0.val, 0, q1.val, 0])

/-- WHAT POINT `t` WRITES BACK is block `t` of the specification's array of the inputs the region finds. -/
theorem k_flushed_eq (c : Dev nD) (t : Fin cfg0.N) :
    (dat0 V c).flushed 4 t = ((cfg0.win 4).blk t).view.read (Elt Ideal) (Karr (V c main_arg0) (V c main_arg2) (V c main_arg3)) := by
  show (cfg0.win 4).cut (grid0.coords t) ((dat0 V c).after 4 t) = _
  rw [after0_4]
  unfold out0_4
  rw [View.canon_unit_zero hz4]
  simp only [View.ld_unit_zero (S := S1x512x768) hz3, View.ld_unit_zero (S := S2304x768) hz2, View.ld_unit_zero (S := S2304) hz1]
  obtain ⟨e0, e1, e2, e3, e4, e5, e6, e7, e8, e9⟩ := k_idx_facts t
  funext j
  obtain ⟨z, h, r, d, rfl⟩ : ∃ (z : Fin 1) (h : Fin 12) (r : Fin 512) (d : Fin 64), j = ix4 z h r d :=
    ⟨j 0, j 1, j 2, j 3, eq_ix4 j⟩
  have hz : z.val = 0 := by have := z.isLt; omega
  have hh : h.val < 12 := h.isLt
  have hr : r.val < 512 := r.isLt
  have hd : d.val < 64 := d.isLt
  show Gen.k0_pay3 (iblk0 V c 0 t) (iblk0 V c 1 t) (iblk0 V c 2 t) (ix4 z h r d)
    = Karr (V c main_arg0) (V c main_arg2) (V c main_arg3) (((cfg0.win 4).blk t).view.emb (ix4 z h r d))
  refine (QkvBody.k_payload (iblk0 V c 0 t) (iblk0 V c 1 t) (iblk0 V c 2 t) z h r d).trans ?_
  refine Eq.trans ?_ (Karr_at (V c main_arg0) (V c main_arg2) (V c main_arg3) (((cfg0.win 4).blk t).view.emb (ix4 z h r d))
    ⟨win0_4.index t (0 : Fin 4), by omega⟩ h ⟨win0_4.index t (2 : Fin 4) * 512 + r.val, by omega⟩ d ?_ ?_ ?_ ?_).symm
  · unfold kAt proj
    refine congr (congr (congrArg dotRow (funext fun k => ?_)) (funext fun k => ?_)) ?_
    · show V c main_arg0 (((cfg0.win 0).blk t).view.emb (ix3 0 r k)) = _
      refine congrArg (V c main_arg0) (funext fun a => Fin.ext ?_)
      match a with
      | ⟨0, _⟩ => show win0_0.index t (0 : Fin 3) * 1 + 1 * 0 = win0_4.index t (0 : Fin 4); omega
      | ⟨1, _⟩ => show win0_0.index t (1 : Fin 3) * 512 + 1 * r.val = win0_4.index t (2 : Fin 4) * 512 + r.val; omega
      | ⟨2, _⟩ => show win0_0.index t (2 : Fin 3) * 768 + 1 * k.val = k.val; omega
    · show V c main_arg2 (((cfg0.win 1).blk t).view.emb (ix2 (feat 1 h d) k)) = _
      refine congrArg (V c main_arg2) (funext fun a => Fin.ext ?_)
      match a with
      | ⟨0, _⟩ => show win0_1.index t (0 : Fin 2) * 2304 + 1 * (feat 1 h d).val = (feat 1 h d).val; omega
      | ⟨1, _⟩ => show win0_1.index t (1 : Fin 2) * 768 + 1 * k.val = k.val; omega
    · show V c main_arg3 (((cfg0.win 2).blk t).view.emb (ix1 (feat 1 h d))) = _
      refine congrArg (V c main_arg3) (funext fun a => Fin.ext ?_)
      match a with
      | ⟨0, _⟩ => show win0_2.index t (0 : Fin 1) * 2304 + 1 * (feat 1 h d).val = (feat 1 h d).val; omega
  · show win0_4.index t (0 : Fin 4) * 1 + 1 * z.val = win0_4.index t (0 : Fin 4); omega
  · show win0_4.index t (1 : Fin 4) * 12 + 1 * h.val = h.val; omega
  · show win0_4.index t (2 : Fin 4) * 512 + 1 * r.val = win0_4.index t (2 : Fin 4) * 512 + r.val; omega
  · show win0_4.index t (3 : Fin 4) * 64 + 1 * d.val = d.val; omega

/-- An index of the output array is in point `t`'s block iff each coordinate is in the block's range on its axis. -/
theorem k_mem_blk (t : Fin cfg0.N) (i : S4x12x1024x64.Idx) :
    i ∈ ((cfg0.win 4).blk t).view.set ↔ ∀ a : Fin 4, win0_4.index t a * S1x12x512x64.size a ≤ (i a).val ∧ (i a).val < win0_4.index t a * S1x12x512x64.size a + S1x12x512x64.size a := by
  show i ∈ ((View.whole main_v0_1).slice (win0_4.rect t)).set ↔ _
  rw [View.set_slice_whole, Rect.mem_set_unit]
  exact Iff.rfl

/-- The eight blocks tile the output: position l of batch entry b lies in the block of point (b, l / 512). -/
theorem k_cover (i : S4x12x1024x64.Idx) : ∃ t : Fin cfg0.N, (cfg0.win 4).flush t = true ∧ i ∈ ((cfg0.win 4).blk t).view.set := by
  have hi0 : (i 0).val < 4 := (i 0).isLt
  have hi1 : (i 1).val < 12 := (i 1).isLt
  have hi2 : (i 2).val < 1024 := (i 2).isLt
  have hi3 : (i 3).val < 64 := (i 3).isLt
  obtain ⟨t, ht⟩ := k_idx_onto ⟨(i 0).val, by omega⟩ ⟨(i 2).val / 512, by omega⟩
  have q0 : win0_4.index t (0 : Fin 4) = (i 0).val := congrFun ht 0
  have q1 : win0_4.index t (1 : Fin 4) = 0 := congrFun ht 1
  have q2 : win0_4.index t (2 : Fin 4) = (i 2).val / 512 := congrFun ht 2
  have q3 : win0_4.index t (3 : Fin 4) = 0 := congrFun ht 3
  refine ⟨t, flush0_4 t, ?_⟩
  rw [k_mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 12 ≤ (i 1).val ∧ (i 1).val < win0_4.index t (1 : Fin 4) * 12 + 12; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- THE OUTPUT ARRAY after the region: the specification's keys of the inputs the region finds. -/
theorem k_result (c : Dev nD) : (dat0 V c).arrAt 4 cfg0.N = Karr (V c main_arg0) (V c main_arg2) (V c main_arg3) :=
  (dat0 V c).arrAt_eq_of_cover 4 (Karr (V c main_arg0) (V c main_arg2) (V c main_arg3)) (fun t _ => k_flushed_eq V c t) k_cover

/-! ## The values (output window 5) -/

/-- The block indices over the grid: the input block follows the output block (batch entry and token tile), the weights and
    the bias are one block each, and the output block spans all heads and lanes. -/
theorem v_idx_facts : ∀ t : Fin cfg0.N,
    win0_0.index t (0 : Fin 3) = win0_5.index t (0 : Fin 4) ∧ win0_0.index t (1 : Fin 3) = win0_5.index t (2 : Fin 4)
    ∧ win0_0.index t (2 : Fin 3) = 0
    ∧ win0_1.index t (0 : Fin 2) = 0 ∧ win0_1.index t (1 : Fin 2) = 0 ∧ win0_2.index t (0 : Fin 1) = 0
    ∧ win0_5.index t (1 : Fin 4) = 0 ∧ win0_5.index t (3 : Fin 4) = 0
    ∧ win0_5.index t (0 : Fin 4) ≤ 3 ∧ win0_5.index t (2 : Fin 4) ≤ 1 :=
  (by decide +kernel : ∀ t : Fin grid0.N, _)

/-- Every (batch entry, token tile) pair is some grid point's output block. -/
theorem v_idx_onto : ∀ (q0 : Fin 4) (q1 : Fin 2), ∃ t : Fin cfg0.N, win0_5.index t = ![q0.val, 0, q1.val, 0] :=
  (by decide +kernel : ∀ (q0 : Fin 4) (q1 : Fin 2), ∃ t : Fin grid0.N, win0_5.index t = ![q0.val, 0, q1.val, 0])

/-- WHAT POINT `t` WRITES BACK is block `t` of the specification's array of the inputs the region finds. -/
theorem v_flushed_eq (c : Dev nD) (t : Fin cfg0.N) :
    (dat0 V c).flushed 5 t = ((cfg0.win 5).blk t).view.read (Elt Ideal) (Varr (V c main_arg0) (V c main_arg2) (V c main_arg3)) := by
  show (cfg0.win 5).cut (grid0.coords t) ((dat0 V c).after 5 t) = _
  rw [after0_5]
  unfold out0_5
  rw [View.canon_unit_zero hz4]
  simp only [View.ld_unit_zero (S := S1x512x768) hz3, View.ld_unit_zero (S := S2304x768) hz2, View.ld_unit_zero (S := S2304) hz1]
  obtain ⟨e0, e1, e2, e3, e4, e5, e6, e7, e8, e9⟩ := v_idx_facts t
  funext j
  obtain ⟨z, h, r, d, rfl⟩ : ∃ (z : Fin 1) (h : Fin 12) (r : Fin 512) (d : Fin 64), j = ix4 z h r d :=
    ⟨j 0, j 1, j 2, j 3, eq_ix4 j⟩
  have hz : z.val = 0 := by have := z.isLt; omega
  have hh : h.val < 12 := h.isLt
  have hr : r.val < 512 := r.isLt
  have hd : d.val < 64 := d.isLt
  show Gen.k0_pay4 (iblk0 V c 0 t) (iblk0 V c 1 t) (iblk0 V c 2 t) (ix4 z h r d)
    = Varr (V c main_arg0) (V c main_arg2) (V c main_arg3) (((cfg0.win 5).blk t).view.emb (ix4 z h r d))
  refine (QkvBody.v_payload (iblk0 V c 0 t) (iblk0 V c 1 t) (iblk0 V c 2 t) z h r d).trans ?_
  refine Eq.trans ?_ (Varr_at (V c main_arg0) (V c main_arg2) (V c main_arg3) (((cfg0.win 5).blk t).view.emb (ix4 z h r d))
    ⟨win0_5.index t (0 : Fin 4), by omega⟩ h ⟨win0_5.index t (2 : Fin 4) * 512 + r.val, by omega⟩ d ?_ ?_ ?_ ?_).symm
  · unfold vAt proj
    refine congr (congr (congrArg dotRow (funext fun k => ?_)) (funext fun k => ?_)) ?_
    · show V c main_arg0 (((cfg0.win 0).blk t).view.emb (ix3 0 r k)) = _
      refine congrArg (V c main_arg0) (funext fun a => Fin.ext ?_)
      match a with
      | ⟨0, _⟩ => show win0_0.index t (0 : Fin 3) * 1 + 1 * 0 = win0_5.index t (0 : Fin 4); omega
      | ⟨1, _⟩ => show win0_0.index t (1 : Fin 3) * 512 + 1 * r.val = win0_5.index t (2 : Fin 4) * 512 + r.val; omega
      | ⟨2, _⟩ => show win0_0.index t (2 : Fin 3) * 768 + 1 * k.val = k.val; omega
    · show V c main_arg2 (((cfg0.win 1).blk t).view.emb (ix2 (feat 2 h d) k)) = _
      refine congrArg (V c main_arg2) (funext fun a => Fin.ext ?_)
      match a with
      | ⟨0, _⟩ => show win0_1.index t (0 : Fin 2) * 2304 + 1 * (feat 2 h d).val = (feat 2 h d).val; omega
      | ⟨1, _⟩ => show win0_1.index t (1 : Fin 2) * 768 + 1 * k.val = k.val; omega
    · show V c main_arg3 (((cfg0.win 2).blk t).view.emb (ix1 (feat 2 h d))) = _
      refine congrArg (V c main_arg3) (funext fun a => Fin.ext ?_)
      match a with
      | ⟨0, _⟩ => show win0_2.index t (0 : Fin 1) * 2304 + 1 * (feat 2 h d).val = (feat 2 h d).val; omega
  · show win0_5.index t (0 : Fin 4) * 1 + 1 * z.val = win0_5.index t (0 : Fin 4); omega
  · show win0_5.index t (1 : Fin 4) * 12 + 1 * h.val = h.val; omega
  · show win0_5.index t (2 : Fin 4) * 512 + 1 * r.val = win0_5.index t (2 : Fin 4) * 512 + r.val; omega
  · show win0_5.index t (3 : Fin 4) * 64 + 1 * d.val = d.val; omega

/-- An index of the output array is in point `t`'s block iff each coordinate is in the block's range on its axis. -/
theorem v_mem_blk (t : Fin cfg0.N) (i : S4x12x1024x64.Idx) :
    i ∈ ((cfg0.win 5).blk t).view.set ↔ ∀ a : Fin 4, win0_5.index t a * S1x12x512x64.size a ≤ (i a).val ∧ (i a).val < win0_5.index t a * S1x12x512x64.size a + S1x12x512x64.size a := by
  show i ∈ ((View.whole main_v0_2).slice (win0_5.rect t)).set ↔ _
  rw [View.set_slice_whole, Rect.mem_set_unit]
  exact Iff.rfl

/-- The eight blocks tile the output: position l of batch entry b lies in the block of point (b, l / 512). -/
theorem v_cover (i : S4x12x1024x64.Idx) : ∃ t : Fin cfg0.N, (cfg0.win 5).flush t = true ∧ i ∈ ((cfg0.win 5).blk t).view.set := by
  have hi0 : (i 0).val < 4 := (i 0).isLt
  have hi1 : (i 1).val < 12 := (i 1).isLt
  have hi2 : (i 2).val < 1024 := (i 2).isLt
  have hi3 : (i 3).val < 64 := (i 3).isLt
  obtain ⟨t, ht⟩ := v_idx_onto ⟨(i 0).val, by omega⟩ ⟨(i 2).val / 512, by omega⟩
  have q0 : win0_5.index t (0 : Fin 4) = (i 0).val := congrFun ht 0
  have q1 : win0_5.index t (1 : Fin 4) = 0 := congrFun ht 1
  have q2 : win0_5.index t (2 : Fin 4) = (i 2).val / 512 := congrFun ht 2
  have q3 : win0_5.index t (3 : Fin 4) = 0 := congrFun ht 3
  refine ⟨t, flush0_5 t, ?_⟩
  rw [v_mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 12 ≤ (i 1).val ∧ (i 1).val < win0_5.index t (1 : Fin 4) * 12 + 12; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-- THE OUTPUT ARRAY after the region: the specification's values of the inputs the region finds. -/
theorem v_result (c : Dev nD) : (dat0 V c).arrAt 5 cfg0.N = Varr (V c main_arg0) (V c main_arg2) (V c main_arg3) :=
  (dat0 V c).arrAt_eq_of_cover 5 (Varr (V c main_arg0) (V c main_arg2) (V c main_arg3)) (fun t _ => v_flushed_eq V c t) v_cover

end Cert.MHA.QkvArray

end
-- ==== Proof.AttnPayload.lean ====
/-
  What the attention kernel's body stores, read at an index.

  The body of the per-head attention call is one pure term over its four blocks (a query, key and value block of
  shape [1, 1, 1024, 64] and a bias block [1, 1, 1024, 1024]). Read at (z, z', r, d) it is the softmax-weighted
  sum of one query row: with score[k] = Σ_dd q[r, dd] · k[k, dd] + bias[r, k], m = max(-∞, fold max from -∞ of score),
  e[k] = exp (score[k] - m), den = Σ_k e[k], the stored value is Σ_k (e[k] / den) · v[k, d].

  Each non-pointwise operation is first read at an index over variables (a shape cast that drops or adds the two
  leading unit axes, a keep-dims column broadcast back along the row, the two contractions, the two row reductions);
  the pointwise ones read through by definition. The main theorem chains them.
-/
import proofs.«117631_j45681272160319_1_alg».proof.Proof.Gen.KernelIdeal.Skeleton
import proofs.«117631_j45681272160319_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.MHA.AttnBody

open Cert.KernelIdeal Cert.KernelIdeal.Facts₀ Cert.MHA Idealize.ShloMosaic Idealize.ShloMosaic.ValueIdx

/-! ## Shape casts that drop or add the two leading unit axes -/

/-- A [1, 1, a, b] array cast to [a, b] reads, at (i, j), the operand at (0, 0, i, j). -/
theorem cast_11ab_ab {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, u', i, j), the operand at (i, j). -/
theorem cast_ab_11ab {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

/-! ## A keep-dims column broadcast back along the row -/

/-- A vector of 1024 entries cast to a [1024, 1] column reads, at (i, 0), the vector at i. -/
theorem cast_col {α : Type} (x : (⟨1, ![1024]⟩ : Shape).Idx → α)
    (h : (⟨1, ![1024]⟩ : Shape).ShapeCasts ⟨2, ![1024, 1]⟩) (i : Fin 1024) (u : Fin 1) :
    shapeCast ⟨2, ![1024, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1024, 1] column broadcast to [1024, 1024] reads, at (i, j), the column at (i, 0). -/
theorem bcast_col {α : Type} (x : (⟨2, ![1024, 1]⟩ : Shape).Idx → α)
    (h : (⟨2, ![1024, 1]⟩ : Shape).Broadcasts ⟨2, ![1024, 1024]⟩) (i j : Fin 1024) :
    broadcastTo ⟨2, ![1024, 1024]⟩ x h (ix2 i j) = x (ix2 i (0 : Fin 1)) :=
  broadcastTo_apply x h _ _ (fun a => match a with
    | ⟨0, _⟩ => by
        show i.val = if (1024 : ℕ) = 1 then 0 else i.val
        rw [if_neg (by decide)]
    | ⟨1, _⟩ => by
        show (0 : ℕ) = if (1 : ℕ) = 1 then 0 else j.val
        rw [if_pos rfl])

/-- So a vector kept as a column and broadcast along the row reads, at (i, j), the vector at i. -/
theorem col_apply {α : Type} (x : (⟨1, ![1024]⟩ : Shape).Idx → α)
    (h₁ : (⟨1, ![1024]⟩ : Shape).ShapeCasts ⟨2, ![1024, 1]⟩)
    (h₂ : (⟨2, ![1024, 1]⟩ : Shape).Broadcasts ⟨2, ![1024, 1024]⟩) (i j : Fin 1024) :
    broadcastTo ⟨2, ![1024, 1024]⟩ (shapeCast ⟨2, ![1024, 1]⟩ x h₁) h₂ (ix2 i j) = x (ix1 i) :=
  (bcast_col _ h₂ i j).trans (cast_col x h₁ i 0)

/-! ## The two contractions -/

/-- Scores: the left operand's kept axis carries the output row. -/
theorem qk_lhs0 (j : S1024x1024.Idx) (q : dot_S1024x64_S1024x64_S1024x1024_1_1_0_0_n_n.contr.Idx) : (dot_S1024x64_S1024x64_S1024x1024_1_1_0_0_n_n.lhsIdx j q 0).val = (j 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
/-- Scores: the right operand's kept axis carries the output column. -/
theorem qk_rhs0 (j : S1024x1024.Idx) (q : dot_S1024x64_S1024x64_S1024x1024_1_1_0_0_n_n.contr.Idx) : (dot_S1024x64_S1024x64_S1024x1024_1_1_0_0_n_n.rhsIdx j q 0).val = (j 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl

/-- The score contraction into a zero accumulator, at (r, c): the sum over the 64 lanes of row r of the left
    operand against row c of the right. -/
theorem qk_apply {φ₁ φ₂ : FTy} (a : FVec Ideal S1024x64 φ₁) (b : FVec Ideal S1024x64 φ₂) (r c : Fin 1024) :
    matmul dot_S1024x64_S1024x64_S1024x1024_1_1_0_0_n_n none a b (constant S1024x1024 .f32 0x00000000#32) (ix2 r c)
      = ∑ dd : Fin 64, a (ix2 r dd) * b (ix2 c dd) := by
  refine (Ideal.matmul_constant_zero_apply dot_S1024x64_S1024x64_S1024x1024_1_1_0_0_n_n none a b (ix2 r c)).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 r c) ((contrEquiv1 dot_S1024x64_S1024x64_S1024x1024_1_1_0_0_n_n 64 rfl rfl).symm k) = ix2 r k := funext fun x => Fin.ext (by
    match x with
    | ⟨0, _⟩ => exact qk_lhs0 _ _
    | ⟨1, _⟩ => exact (dot_S1024x64_S1024x64_S1024x1024_1_1_0_0_n_n.lhsIdx_val_of_single rfl _ _).trans hk)
  have er : dot_S1024x64_S1024x64_S1024x1024_1_1_0_0_n_n.rhsIdx (ix2 r c) ((contrEquiv1 dot_S1024x64_S1024x64_S1024x1024_1_1_0_0_n_n 64 rfl rfl).symm k) = ix2 c k := funext fun x => Fin.ext (by
    match x with
    | ⟨0, _⟩ => exact qk_rhs0 _ _
    | ⟨1, _⟩ => exact (dot_S1024x64_S1024x64_S1024x1024_1_1_0_0_n_n.rhsIdx_val_of_single rfl _ _).trans hk)
  rw [el, er]

/-- Weighted values: the left operand's kept axis carries the output row. -/
theorem pv_lhs0 (j : S1024x64.Idx) (q : dot_S1024x1024_S1024x64_S1024x64_1_0_0_1_n_n.contr.Idx) : (dot_S1024x1024_S1024x64_S1024x64_1_0_0_1_n_n.lhsIdx j q 0).val = (j 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
/-- Weighted values: the right operand's kept axis carries the output lane. -/
theorem pv_rhs1 (j : S1024x64.Idx) (q : dot_S1024x1024_S1024x64_S1024x64_1_0_0_1_n_n.contr.Idx) : (dot_S1024x1024_S1024x64_S1024x64_1_0_0_1_n_n.rhsIdx j q 1).val = (j 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The value contraction into a zero accumulator, at (r, d): the sum over the 1024 keys of row r of the left operand
    against lane d of the right operand's rows. -/
theorem pv_apply {φ₁ φ₂ : FTy} (p : FVec Ideal S1024x1024 φ₁) (v : FVec Ideal S1024x64 φ₂) (r : Fin 1024) (d : Fin 64) :
    matmul dot_S1024x1024_S1024x64_S1024x64_1_0_0_1_n_n none p v (constant S1024x64 .f32 0x00000000#32) (ix2 r d)
      = ∑ kk : Fin 1024, p (ix2 r kk) * v (ix2 kk d) := by
  refine (Ideal.matmul_constant_zero_apply dot_S1024x1024_S1024x64_S1024x64_1_0_0_1_n_n none p v (ix2 r d)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r d) ((contrEquiv1 dot_S1024x1024_S1024x64_S1024x64_1_0_0_1_n_n 1024 rfl rfl).symm k) = ix2 r k := funext fun x => Fin.ext (by
    match x with
    | ⟨0, _⟩ => exact pv_lhs0 _ _
    | ⟨1, _⟩ => exact (dot_S1024x1024_S1024x64_S1024x64_1_0_0_1_n_n.lhsIdx_val_of_single rfl _ _).trans hk)
  have er : dot_S1024x1024_S1024x64_S1024x64_1_0_0_1_n_n.rhsIdx (ix2 r d) ((contrEquiv1 dot_S1024x1024_S1024x64_S1024x64_1_0_0_1_n_n 1024 rfl rfl).symm k) = ix2 k d := funext fun x => Fin.ext (by
    match x with
    | ⟨0, _⟩ => exact (dot_S1024x1024_S1024x64_S1024x64_1_0_0_1_n_n.rhsIdx_val_of_single rfl _ _).trans hk
    | ⟨1, _⟩ => exact pv_rhs1 _ _)
  rw [el, er]

/-! ## The two row reductions -/

/-- The source index over row r with k on the reduced axis is (r, k). -/
theorem lift_row (h : S1024x1024.Reduces [1] S1024) (r k : Fin 1024) : h.lift (ix1 r) k = ix2 r k :=
  funext fun x => Fin.ext (by
    match x with
    | ⟨0, _⟩ => rfl
    | ⟨1, _⟩ => rfl)

/-- A row sum: the sum over the 1024 columns. -/
theorem rowsum_apply {φ : FTy} (src : FVec Ideal S1024x1024 φ) (acc : BitVec φ.bits) (h : S1024x1024.Reduces [1] S1024)
    (hφ : FKind.Formats φ) (hacc : acc = FKind.add.neutral φ hφ) (r : Fin 1024) :
    multiReduction .add [1] S1024 src acc h hφ hacc (ix1 r) = ∑ kk : Fin 1024, src (ix2 r kk) := by
  refine (Ideal.multiReduction_add_single src acc h hφ hacc (ix1 r)).trans ?_
  exact Finset.sum_congr rfl fun k _ => congrArg src (lift_row h r k)

/-- A row maximum: the fold of max, from the accumulator's value, over the 1024 columns. -/
theorem rowmax_apply {φ : FTy} (src : FVec Ideal S1024x1024 φ) (acc : BitVec φ.bits) (h : S1024x1024.Reduces [1] S1024)
    (hφ : FKind.Formats φ) (hacc : acc = FKind.maximumf.neutral φ hφ) (r : Fin 1024) :
    multiReduction .maximumf [1] S1024 src acc h hφ hacc (ix1 r)
      = (Finset.univ : Finset (Fin 1024)).fold max (Ideal.ofBits φ acc) (fun kk => src (ix2 r kk)) := by
  refine (Ideal.multiReduction_maximumf_single src acc h hφ hacc (ix1 r)).trans ?_
  exact congrArg (fun f => (Finset.univ : Finset (Fin 1024)).fold max (Ideal.ofBits φ acc) f)
    (funext fun k => congrArg src (lift_row h r k))

/-! ## The scores, the softmax of a score matrix, and the stored value -/

/-- The score matrix at (r, c): row r of the query block against row c of the key block, plus the bias. -/
theorem score_apply (q k : Vec Ideal S1x1x1024x64 .f32) (bias : Vec Ideal S1x1x1024x1024 .f32)
    (hq hk : S1x1x1024x64.ShapeCasts S1024x64) (hb : S1x1x1024x1024.ShapeCasts S1024x1024)
    (ht ht' : FTy.bits .bf16 < FTy.bits .f32) (r c : Fin 1024) :
    addf (matmul dot_S1024x64_S1024x64_S1024x1024_1_1_0_0_n_n none
          (truncf .bf16 (shapeCast S1024x64 q hq : FVec Ideal S1024x64 .f32) ht)
          (truncf .bf16 (shapeCast S1024x64 k hk : FVec Ideal S1024x64 .f32) ht')
          (constant S1024x1024 .f32 0x00000000#32))
        (shapeCast S1024x1024 bias hb : FVec Ideal S1024x1024 .f32) (ix2 r c)
      = rowScore (fun d' => q (ix4 0 0 r d')) (fun kk d' => k (ix4 0 0 kk d')) (fun kk => bias (ix4 0 0 r kk)) c := by
  refine (addf_apply _ _ _).trans ?_
  unfold rowScore
  refine congrArg₂ (· + ·) ?_ (cast_11ab_ab bias hb r c)
  refine (qk_apply _ _ r c).trans ?_
  exact Finset.sum_congr rfl fun dd _ => congrArg₂ (· * ·)
    ((truncf_apply _ ht _).trans (cast_11ab_ab q hq r dd)) ((truncf_apply _ ht' _).trans (cast_11ab_ab k hk c dd))

section Soft

variable (s : FVec Ideal S1024x1024 .f32) (hr : S1024x1024.Reduces [1] S1024) (hc : S1024.ShapeCasts S1024x1)
  (hb : S1024x1.Broadcasts S1024x1024) (hφ : FKind.Formats .f32)
  (hm : (0xFF800000#32 : BitVec FTy.f32.bits) = FKind.maximumf.neutral .f32 hφ)
  (ha : (0x00000000#32 : BitVec FTy.f32.bits) = FKind.add.neutral .f32 hφ)

/-- The maximum of row r of a score matrix: the fold of max from -∞, then once more against -∞. -/
def mrow (r : Fin 1024) : EReal :=
  max (Ideal.ofBits .f32 0xFF800000#32)
    ((Finset.univ : Finset (Fin 1024)).fold max (Ideal.ofBits .f32 0xFF800000#32) fun kk => s (ix2 r kk))

/-- The row maxima, taken once more against -∞, kept as a column and broadcast along the rows: at (r, c) it is
    row r's maximum. -/
theorem max_col_apply (r c : Fin 1024) :
    broadcastTo S1024x1024
        (shapeCast S1024x1
          (maximumf (broadcast S1024 (FloatOps.ofBits (F := Ideal) .f32 0xFF800000#32))
            (multiReduction .maximumf [1] S1024 s 0xFF800000#32 hr hφ hm)) hc) hb (ix2 r c)
      = mrow s r := by
  refine (col_apply _ hc hb r c).trans ?_
  refine (maximumf_apply _ _ _).trans ?_
  exact congrArg (max (Ideal.ofBits .f32 0xFF800000#32)) (rowmax_apply s _ hr hφ hm r)

/-- The softmax numerators at (r, c): exp of the score less its row's maximum. -/
theorem num_apply (r c : Fin 1024) :
    exp (subf s
          (broadcastTo S1024x1024
            (shapeCast S1024x1
              (maximumf (broadcast S1024 (FloatOps.ofBits (F := Ideal) .f32 0xFF800000#32))
                (multiReduction .maximumf [1] S1024 s 0xFF800000#32 hr hφ hm)) hc) hb)) (ix2 r c)
      = Ideal.exp (s (ix2 r c) - mrow s r) := by
  refine congrArg Ideal.exp ?_
  refine (subf_apply _ _ _).trans ?_
  exact congrArg (s (ix2 r c) - ·) (max_col_apply s hr hc hb hφ hm r c)

/-- The row sums of a matrix kept as a column and broadcast along the rows: at (r, c) it is row r's sum. -/
theorem sum_col_apply (e : FVec Ideal S1024x1024 .f32) (r c : Fin 1024) :
    broadcastTo S1024x1024 (shapeCast S1024x1 (multiReduction .add [1] S1024 e 0x00000000#32 hr hφ ha) hc) hb (ix2 r c)
      = ∑ kk : Fin 1024, e (ix2 r kk) :=
  (col_apply _ hc hb r c).trans (rowsum_apply e _ hr hφ ha r)

-- one query row, the key rows and the query's row of the bias; row r of the score matrix is their scores
variable (qrow : Fin 64 → EReal) (krows : Fin 1024 → Fin 64 → EReal) (brow : Fin 1024 → EReal) (r : Fin 1024)
  (hs : ∀ c, s (ix2 r c) = rowScore qrow krows brow c)
include hs

/-- Then row r's maximum is the row maximum of the scores … -/
theorem mrow_eq : mrow s r = rowMax qrow krows brow := by
  unfold mrow rowMax negInf
  exact congrArg (fun f : Fin 1024 → EReal => max (Ideal.ofBits .f32 0xFF800000#32)
    ((Finset.univ : Finset (Fin 1024)).fold max (Ideal.ofBits .f32 0xFF800000#32) f)) (funext hs)

/-- … the numerators of row r are the softmax numerators … -/
theorem num_eq (c : Fin 1024) :
    exp (subf s
          (broadcastTo S1024x1024
            (shapeCast S1024x1
              (maximumf (broadcast S1024 (FloatOps.ofBits (F := Ideal) .f32 0xFF800000#32))
                (multiReduction .maximumf [1] S1024 s 0xFF800000#32 hr hφ hm)) hc) hb)) (ix2 r c)
      = rowExp qrow krows brow c := by
  refine (num_apply s hr hc hb hφ hm r c).trans ?_
  unfold rowExp
  rw [hs c, mrow_eq s qrow krows brow r hs]

/-- … and the quotient by the broadcast row sums is the probability. -/
theorem prob_eq (c : Fin 1024) :
    divf
        (exp (subf s
          (broadcastTo S1024x1024
            (shapeCast S1024x1
              (maximumf (broadcast S1024 (FloatOps.ofBits (F := Ideal) .f32 0xFF800000#32))
                (multiReduction .maximumf [1] S1024 s 0xFF800000#32 hr hφ hm)) hc) hb)))
        (broadcastTo S1024x1024
          (shapeCast S1024x1
            (multiReduction .add [1] S1024
              (exp (subf s
                (broadcastTo S1024x1024
                  (shapeCast S1024x1
                    (maximumf (broadcast S1024 (FloatOps.ofBits (F := Ideal) .f32 0xFF800000#32))
                      (multiReduction .maximumf [1] S1024 s 0xFF800000#32 hr hφ hm)) hc) hb)))
              0x00000000#32 hr hφ ha) hc) hb) (ix2 r c)
      = rowProb qrow krows brow c := by
  refine (divf_apply _ _ _).trans ?_
  unfold rowProb rowDen
  refine congrArg₂ Ideal.div (num_eq s hr hc hb hφ hm qrow krows brow r hs c) ?_
  refine (sum_col_apply hr hc hb hφ ha _ r c).trans ?_
  exact Finset.sum_congr rfl fun kk _ => num_eq s hr hc hb hφ hm qrow krows brow r hs kk

end Soft

/-- THE BODY AT AN INDEX: the attention call's stored block at (z, z', r, d) is lane d of the head's output for query
    row r — the softmax of that row's scores against the 1024 value rows' lane d. -/
theorem attn_payload (q k v : Vec Ideal S1x1x1024x64 .f32) (bias : Vec Ideal S1x1x1024x1024 .f32) (z z' : Fin 1)
    (r : Fin 1024) (d : Fin 64) :
    Gen.k1_pay1 (F := Ideal) q k v bias (ix4 z z' r d)
      = headRow (fun d' => q (ix4 0 0 r d')) (fun kk d' => k (ix4 0 0 kk d')) (fun kk => bias (ix4 0 0 r kk))
          (fun kk => v (ix4 0 0 kk d)) := by
  unfold Gen.k1_pay1
  refine (cast_ab_11ab _ _ z z' r d).trans ?_
  refine (pv_apply _ _ r d).trans ?_
  unfold headRow
  refine Finset.sum_congr rfl fun kk _ => ?_
  refine congrArg₂ (· * ·) ?_ ((truncf_apply (ψ := .bf16) (φ := .f32) _ _ _).trans (cast_11ab_ab v _ kk d))
  refine (truncf_apply (ψ := .bf16) (φ := .f32) _ _ _).trans ?_
  exact prob_eq _ _ _ _ _ _ _ _ _ _ r (fun c => score_apply q k bias _ _ _ _ _ r c) kk

end Cert.MHA.AttnBody

end
-- ==== Proof.AttnArray.lean ====
/-
  The attention region: from blocks to the whole array of the heads' outputs.

  The region's grid is 4 × 12: point (b, h) takes the query, key and value blocks [1, 1, 1024, 64] of head h of batch entry b
  and the bias block [1, 1, 1024, 1024] of the same pair, all at block index (b, h, 0, 0), and writes the output block of the
  same shape and index. What a point writes is the attention of the arrays the region finds, read through that block; the 48
  blocks tile the output array.
-/
import proofs.«117631_j45681272160319_1_alg».proof.Proof.Gen.KernelIdeal.Frame
import proofs.«117631_j45681272160319_1_alg».proof.Proof.AttnPayload
import proofs.«117631_j45681272160319_1_alg».proof.Proof.SpecAt
import Idealize.ShloMosaic.Lib.Pipeline.Value

set_option maxRecDepth 16384

noncomputable section

namespace Cert.MHA.AttnArray

open Cert.KernelIdeal Cert.KernelIdeal.Gen Cert.MHA Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The block indices over the grid: all five windows sit at (batch entry, head, 0, 0). -/
theorem idx_facts : ∀ t : Fin cfg1.N,
    win1_0.index t (0 : Fin 4) = win1_4.index t (0 : Fin 4) ∧ win1_0.index t (1 : Fin 4) = win1_4.index t (1 : Fin 4)
    ∧ win1_0.index t (2 : Fin 4) = 0 ∧ win1_0.index t (3 : Fin 4) = 0
    ∧ win1_1.index t (0 : Fin 4) = win1_4.index t (0 : Fin 4) ∧ win1_1.index t (1 : Fin 4) = win1_4.index t (1 : Fin 4)
    ∧ win1_1.index t (2 : Fin 4) = 0 ∧ win1_1.index t (3 : Fin 4) = 0
    ∧ win1_2.index t (0 : Fin 4) = win1_4.index t (0 : Fin 4) ∧ win1_2.index t (1 : Fin 4) = win1_4.index t (1 : Fin 4)
    ∧ win1_2.index t (2 : Fin 4) = 0 ∧ win1_2.index t (3 : Fin 4) = 0
    ∧ win1_3.index t (0 : Fin 4) = win1_4.index t (0 : Fin 4) ∧ win1_3.index t (1 : Fin 4) = win1_4.index t (1 : Fin 4)
    ∧ win1_3.index t (2 : Fin 4) = 0 ∧ win1_3.index t (3 : Fin 4) = 0
    ∧ win1_4.index t (2 : Fin 4) = 0 ∧ win1_4.index t (3 : Fin 4) = 0
    ∧ win1_4.index t (0 : Fin 4) ≤ 3 ∧ win1_4.index t (1 : Fin 4) ≤ 11 :=
  (by decide +kernel : ∀ t : Fin grid1.N, _)

/-- Every (batch entry, head) pair is some grid point's output block. -/
theorem idx_onto : ∀ (q0 : Fin 4) (q1 : Fin 12), ∃ t : Fin cfg1.N, win1_4.index t = ![q0.val, q1.val, 0, 0] :=
  (by decide +kernel : ∀ (q0 : Fin 4) (q1 : Fin 12), ∃ t : Fin grid1.N, win1_4.index t = ![q0.val, q1.val, 0, 0])

/-- WHAT POINT `t` WRITES BACK is block `t` of the attention of the arrays the region finds. -/
theorem flushed_eq (c : Dev nD) (t : Fin cfg1.N) :
    (dat1 V c).flushed 4 t = ((cfg1.win 4).blk t).view.read (Elt Ideal)
      (Oarr (V c main_v0_0) (V c main_v0_1) (V c main_v0_2) (V c main_arg1)) := by
  show (cfg1.win 4).cut (grid1.coords t) ((dat1 V c).after 4 t) = _
  rw [after1_4]
  unfold out1_4
  rw [View.canon_unit_zero hz4]
  simp only [View.ld_unit_zero (S := S1x1x1024x64) hz4, View.ld_unit_zero (S := S1x1x1024x1024) hz4]
  obtain ⟨a0, a1, a2, a3, b0, b1, b2, b3, c0, c1, c2, c3, d0, d1, d2, d3, o2, o3, o0, o1⟩ := idx_facts t
  funext j
  obtain ⟨z, z', q, d, rfl⟩ : ∃ (z : Fin 1) (z' : Fin 1) (q : Fin 1024) (d : Fin 64), j = ix4 z z' q d :=
    ⟨j 0, j 1, j 2, j 3, eq_ix4 j⟩
  have hz : z.val = 0 := by have := z.isLt; omega
  have hz' : z'.val = 0 := by have := z'.isLt; omega
  show Gen.k1_pay1 (iblk1 V c 0 t) (iblk1 V c 1 t) (iblk1 V c 2 t) (iblk1 V c 3 t) (ix4 z z' q d)
    = Oarr (V c main_v0_0) (V c main_v0_1) (V c main_v0_2) (V c main_arg1) (((cfg1.win 4).blk t).view.emb (ix4 z z' q d))
  refine (AttnBody.attn_payload (iblk1 V c 0 t) (iblk1 V c 1 t) (iblk1 V c 2 t) (iblk1 V c 3 t) z z' q d).trans ?_
  refine Eq.trans ?_ (Oarr_at (V c main_v0_0) (V c main_v0_1) (V c main_v0_2) (V c main_arg1) (((cfg1.win 4).blk t).view.emb (ix4 z z' q d))
    ⟨win1_4.index t (0 : Fin 4), by omega⟩ ⟨win1_4.index t (1 : Fin 4), by omega⟩ q d ?_ ?_ ?_ ?_).symm
  · unfold attnAt
    refine congr (congr (congr (congrArg headRow (funext fun d' => ?_)) (funext fun k => funext fun d' => ?_)) (funext fun k => ?_)) (funext fun k => ?_)
    · show V c main_v0_0 (((cfg1.win 0).blk t).view.emb (ix4 0 0 q d')) = _
      refine congrArg (V c main_v0_0) (funext fun a => Fin.ext ?_)
      match a with
      | ⟨0, _⟩ => show win1_0.index t (0 : Fin 4) * 1 + 1 * 0 = win1_4.index t (0 : Fin 4); omega
      | ⟨1, _⟩ => show win1_0.index t (1 : Fin 4) * 1 + 1 * 0 = win1_4.index t (1 : Fin 4); omega
      | ⟨2, _⟩ => show win1_0.index t (2 : Fin 4) * 1024 + 1 * q.val = q.val; omega
      | ⟨3, _⟩ => show win1_0.index t (3 : Fin 4) * 64 + 1 * d'.val = d'.val; omega
    · show V c main_v0_1 (((cfg1.win 1).blk t).view.emb (ix4 0 0 k d')) = _
      refine congrArg (V c main_v0_1) (funext fun a => Fin.ext ?_)
      match a with
      | ⟨0, _⟩ => show win1_1.index t (0 : Fin 4) * 1 + 1 * 0 = win1_4.index t (0 : Fin 4); omega
      | ⟨1, _⟩ => show win1_1.index t (1 : Fin 4) * 1 + 1 * 0 = win1_4.index t (1 : Fin 4); omega
      | ⟨2, _⟩ => show win1_1.index t (2 : Fin 4) * 1024 + 1 * k.val = k.val; omega
      | ⟨3, _⟩ => show win1_1.index t (3 : Fin 4) * 64 + 1 * d'.val = d'.val; omega
    · show V c main_arg1 (((cfg1.win 3).blk t).view.emb (ix4 0 0 q k)) = _
      refine congrArg (V c main_arg1) (funext fun a => Fin.ext ?_)
      match a with
      | ⟨0, _⟩ => show win1_3.index t (0 : Fin 4) * 1 + 1 * 0 = win1_4.index t (0 : Fin 4); omega
      | ⟨1, _⟩ => show win1_3.index t (1 : Fin 4) * 1 + 1 * 0 = win1_4.index t (1 : Fin 4); omega
      | ⟨2, _⟩ => show win1_3.index t (2 : Fin 4) * 1024 + 1 * q.val = q.val; omega
      | ⟨3, _⟩ => show win1_3.index t (3 : Fin 4) * 1024 + 1 * k.val = k.val; omega
    · show V c main_v0_2 (((cfg1.win 2).blk t).view.emb (ix4 0 0 k d)) = _
      refine congrArg (V c main_v0_2) (funext fun a => Fin.ext ?_)
      match a with
      | ⟨0, _⟩ => show win1_2.index t (0 : Fin 4) * 1 + 1 * 0 = win1_4.index t (0 : Fin 4); omega
      | ⟨1, _⟩ => show win1_2.index t (1 : Fin 4) * 1 + 1 * 0 = win1_4.index t (1 : Fin 4); omega
      | ⟨2, _⟩ => show win1_2.index t (2 : Fin 4) * 1024 + 1 * k.val = k.val; omega
      | ⟨3, _⟩ => show win1_2.index t (3 : Fin 4) * 64 + 1 * d.val = d.val; omega
  · show win1_4.index t (0 : Fin 4) * 1 + 1 * z.val = win1_4.index t (0 : Fin 4); omega
  · show win1_4.index t (1 : Fin 4) * 1 + 1 * z'.val = win1_4.index t (1 : Fin 4); omega
  · show win1_4.index t (2 : Fin 4) * 1024 + 1 * q.val = q.val; omega
  · show win1_4.index t (3 : Fin 4) * 64 + 1 * d.val = d.val; omega

/-- An index of the output array is in point `t`'s block iff each coordinate is in the block's range on its axis. -/
theorem mem_blk (t : Fin cfg1.N) (i : S4x12x1024x64.Idx) :
    i ∈ ((cfg1.win 4).blk t).view.set ↔ ∀ a : Fin 4, win1_4.index t a * S1x1x1024x64.size a ≤ (i a).val ∧ (i a).val < win1_4.index t a * S1x1x1024x64.size a + S1x1x1024x64.size a := by
  show i ∈ ((View.whole main_v1).slice (win1_4.rect t)).set ↔ _
  rw [View.set_slice_whole, Rect.mem_set_unit]
  exact Iff.rfl

/-- The 48 blocks tile the output array: entry (b, h, ·, ·) lies in the block of point (b, h). -/
theorem cover (i : S4x12x1024x64.Idx) : ∃ t : Fin cfg1.N, (cfg1.win 4).flush t = true ∧ i ∈ ((cfg1.win 4).blk t).view.set := by
  have hi0 : (i 0).val < 4 := (i 0).isLt
  have hi1 : (i 1).val < 12 := (i 1).isLt
  have hi2 : (i 2).val < 1024 := (i 2).isLt
  have hi3 : (i 3).val < 64 := (i 3).isLt
  obtain ⟨t, ht⟩ := idx_onto ⟨(i 0).val, by omega⟩ ⟨(i 1).val, by omega⟩
  have q0 : win1_4.index t (0 : Fin 4) = (i 0).val := congrFun ht 0
  have q1 : win1_4.index t (1 : Fin 4) = (i 1).val := congrFun ht 1
  have q2 : win1_4.index t (2 : Fin 4) = 0 := congrFun ht 2
  have q3 : win1_4.index t (3 : Fin 4) = 0 := congrFun ht 3
  refine ⟨t, flush1_4 t, ?_⟩
  rw [mem_blk]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 1 ≤ (i 1).val ∧ (i 1).val < win1_4.index t (1 : Fin 4) * 1 + 1; omega
  | ⟨2, _⟩ => show win1_4.index t (2 : Fin 4) * 1024 ≤ (i 2).val ∧ (i 2).val < win1_4.index t (2 : Fin 4) * 1024 + 1024; omega
  | ⟨3, _⟩ => show win1_4.index t (3 : Fin 4) * 64 ≤ (i 3).val ∧ (i 3).val < win1_4.index t (3 : Fin 4) * 64 + 64; omega

/-- THE OUTPUT ARRAY after the region: the attention of the arrays the region finds. -/
theorem result (c : Dev nD) : (dat1 V c).arrAt 4 cfg1.N = Oarr (V c main_v0_0) (V c main_v0_1) (V c main_v0_2) (V c main_arg1) :=
  (dat1 V c).arrAt_eq_of_cover 4 (Oarr (V c main_v0_0) (V c main_v0_1) (V c main_v0_2) (V c main_arg1)) (fun t _ => flushed_eq V c t) cover

end Cert.MHA.AttnArray

end
-- ==== Proof.OutProjBody.lean ====
/-
  What the output-projection kernel's body stores, read at an index.

  The body receives the block of the heads' outputs for 512 consecutive tokens of one batch entry, laid out
  [1, head, token, lane], the whole weight matrix and the whole bias. It moves the head axis inside (transpose, then a
  reshape that merges head and lane into one feature axis k = head · 64 + lane), multiplies by the transposed weights and
  adds the bias. At token r and output feature e this is the dot product over k of o[0, k / 64, r, k % 64] with
  w[e, k], plus β[e].
-/
import proofs.«117631_j45681272160319_1_alg».proof.Proof.Gen.KernelIdeal.Skeleton
import proofs.«117631_j45681272160319_1_alg».proof.Proof.Spec
import Idealize.ShloMosaic.Lib.ValueIdx
import Idealize.ShloMosaic.Lib.Pipeline.Value
import Idealize.ShloMosaic.PureOps.Ideal.Laws

noncomputable section

namespace Cert.MHA.OutProjBody

open Cert.KernelIdeal Cert.MHA Idealize.ShloMosaic Idealize.ShloMosaic.ValueIdx
open Cert.KernelIdeal.Facts₀

/-- The operand indices of the product at an output index: the row of the left operand and the row of the right one. -/
theorem lhs_row (i : S512x768.Idx) (q : dot_S512x768_S768x768_S512x768_1_1_0_0_n_n.contr.Idx) :
    (dot_S512x768_S768x768_S512x768_1_1_0_0_n_n.lhsIdx i q 0).val = (i 0).val := by
  unfold DotDims.lhsIdx
  rw [dif_neg (show ¬(0 : Fin S512x768.rank) ∈ dot_S512x768_S768x768_S512x768_1_1_0_0_n_n.lhsBatch by decide), dif_pos (show (0 : Fin S512x768.rank) ∈ dot_S512x768_S768x768_S512x768_1_1_0_0_n_n.lhsNonContracting by decide)]
  rfl
theorem rhs_row (i : S512x768.Idx) (q : dot_S512x768_S768x768_S512x768_1_1_0_0_n_n.contr.Idx) :
    (dot_S512x768_S768x768_S512x768_1_1_0_0_n_n.rhsIdx i q 0).val = (i 1).val := by
  unfold DotDims.rhsIdx
  rw [dif_neg (show ¬(0 : Fin S768x768.rank) ∈ dot_S512x768_S768x768_S512x768_1_1_0_0_n_n.rhsBatch by decide), dif_pos (show (0 : Fin S768x768.rank) ∈ dot_S512x768_S768x768_S512x768_1_1_0_0_n_n.rhsNonContracting by decide)]
  rfl

/-- The product of a [512, 768] block with the transpose of a [768, 768] matrix, accumulated from zero, at (r, e):
    the sum over the shared axis. -/
theorem matmul_at (a : FVec Ideal S512x768 .bf16) (b : FVec Ideal S768x768 .bf16) (r : Fin 512) (e : Fin 768) :
    matmul dot_S512x768_S768x768_S512x768_1_1_0_0_n_n none a b (constant (F := Ideal) S512x768 .f32 0x00000000#32) (ix2 r e)
      = ∑ k : Fin 768, a (ix2 r k) * b (ix2 e k) := by
  simp only [matmul]
  rw [Ideal.matmul_constant_zero_apply, ← Equiv.sum_comp (contrEquiv1 dot_S512x768_S768x768_S512x768_1_1_0_0_n_n 768 rfl rfl).symm]
  refine Finset.sum_congr rfl fun k _ => ?_
  have hk := contrEquiv1_symm_val dot_S512x768_S768x768_S512x768_1_1_0_0_n_n 768 rfl rfl k
  have el : dot_S512x768_S768x768_S512x768_1_1_0_0_n_n.lhsIdx (ix2 r e) ((contrEquiv1 dot_S512x768_S768x768_S512x768_1_1_0_0_n_n 768 rfl rfl).symm k) = ix2 r k :=
    funext fun a => Fin.ext (by
      match a with
      | ⟨0, _⟩ => exact lhs_row _ _
      | ⟨1, _⟩ => exact (dot_S512x768_S768x768_S512x768_1_1_0_0_n_n.lhsIdx_val_of_single rfl _ _).trans hk)
  have er : dot_S512x768_S768x768_S512x768_1_1_0_0_n_n.rhsIdx (ix2 r e) ((contrEquiv1 dot_S512x768_S768x768_S512x768_1_1_0_0_n_n 768 rfl rfl).symm k) = ix2 e k :=
    funext fun a => Fin.ext (by
      match a with
      | ⟨0, _⟩ => exact rhs_row _ _
      | ⟨1, _⟩ => exact (dot_S512x768_S768x768_S512x768_1_1_0_0_n_n.rhsIdx_val_of_single rfl _ _).trans hk)
  rw [el, er]

/-- Dropping the leading unit axis of the block, swapping head and token, and merging head and lane into one feature axis:
    token r, feature k of the result is lane k % 64 of head k / 64 at token r. -/
theorem merged_at (o : Vec Ideal S1x12x512x64 .f32) (r : Fin 512) (k : Fin 768) :
    shapeCast S512x768 (transpose S512x12x64 [1, 0, 2] (shapeCast S12x512x64 o shapeCasts_S1x12x512x64_S12x512x64)
        transposes_S12x512x64_p1_0_2_S512x12x64) shapeCasts_S512x12x64_S512x768 (ix2 r k)
      = o (ix4 0 (headOf k) r (laneOf k)) := by
  have hk : k.val < 768 := k.isLt
  have hr : r.val < 512 := r.isLt
  refine (shapeCast_apply _ shapeCasts_S512x12x64_S512x768 (ix2 r k) (ix3 r (headOf k) (laneOf k)) ?_).trans ?_
  · rw [Shape.rowMajor_val_three, Shape.rowMajor_val_two]
    show (r.val * 12 + k.val / 64) * 64 + k.val % 64 = r.val * 768 + k.val
    omega
  refine (transpose_apply [1, 0, 2] _ transposes_S12x512x64_p1_0_2_S512x12x64 (ix3 r (headOf k) (laneOf k)) (ix3 (headOf k) r (laneOf k))
    (fun b => match b with | ⟨0, _⟩ => rfl | ⟨1, _⟩ => rfl | ⟨2, _⟩ => rfl)).trans ?_
  refine shapeCast_apply o shapeCasts_S1x12x512x64_S12x512x64 (ix3 (headOf k) r (laneOf k)) (ix4 0 (headOf k) r (laneOf k)) ?_
  rw [Shape.rowMajor_val_three, Shape.rowMajor_val_four]
  show ((0 * 12 + k.val / 64) * 512 + r.val) * 64 + k.val % 64 = (k.val / 64 * 512 + r.val) * 64 + k.val % 64
  omega

/-- The bias as a one-row matrix repeated down the 512 rows: at (r, e) it is β[e]. -/
theorem bias_at (β : Vec Ideal S768 .f32) (r : Fin 512) (e : Fin 768) :
    broadcastTo S512x768 (shapeCast S1x768 β shapeCasts_S768_S1x768) broadcasts_S1x768_S512x768 (ix2 r e) = β (ix1 e) := by
  refine (broadcastTo_apply _ broadcasts_S1x768_S512x768 (ix2 r e) (ix2 (0 : Fin 1) e)
    (fun a => match a with
      | ⟨0, _⟩ => by show 0 = if (1 : Nat) = 1 then 0 else r.val; rw [if_pos rfl]
      | ⟨1, _⟩ => by show e.val = if (768 : Nat) = 1 then 0 else e.val; rw [if_neg (by decide)])).trans ?_
  refine shapeCast_apply β shapeCasts_S768_S1x768 (ix2 (0 : Fin 1) e) (ix1 e) ?_
  rw [Shape.rowMajor_val_one, Shape.rowMajor_val_two]
  show e.val = 0 * 768 + e.val
  omega

/-- THE PAYLOAD AT AN INDEX: the projection's dot product of the merged heads' row with the weight row, plus the bias. -/
theorem payload_at (o : Vec Ideal S1x12x512x64 .f32) (w : Vec Ideal S768x768 .f32) (β : Vec Ideal S768 .f32)
    (z : Fin 1) (r : Fin 512) (e : Fin 768) :
    Gen.k2_pay1 (F := Ideal) o w β (ix3 z r e)
      = dotRow (fun k => o (ix4 0 (headOf k) r (laneOf k))) (fun k => w (ix2 e k)) (β (ix1 e)) := by
  have hz : z.val = 0 := by have := z.isLt; omega
  unfold Gen.k2_pay1
  refine (shapeCast_apply _ shapeCasts_S512x768_S1x512x768 (ix3 z r e) (ix2 r e) ?_).trans ?_
  · rw [Shape.rowMajor_val_two, Shape.rowMajor_val_three]
    show r.val * 768 + e.val = (z.val * 512 + r.val) * 768 + e.val
    rw [hz]; omega
  unfold dotRow
  refine congrArg₂ (· + ·) ?_ (bias_at β r e)
  refine (matmul_at _ _ r e).trans ?_
  refine Finset.sum_congr rfl fun k _ => ?_
  exact congrArg (· * w (ix2 e k)) (merged_at o r k)

end Cert.MHA.OutProjBody

end
-- ==== Proof.OutProjArray.lean ====
/-
  The output-projection region: from blocks to the whole result array.

  The region's grid is 4 × 2: point (b, l) takes the heads' outputs of batch entry b for tokens l · 512 … l · 512 + 511
  (block [1, 12, 512, 64] at block index (b, 0, l, 0)), the whole weight matrix and bias, and writes block [1, 512, 768] of
  the result at block index (b, l, 0). What a point writes is the projection of the array the region finds, read through
  that block; the eight blocks tile the result, so the result array is the projection of the whole input array.
-/
import proofs.«117631_j45681272160319_1_alg».proof.Proof.Gen.KernelIdeal.Frame
import proofs.«117631_j45681272160319_1_alg».proof.Proof.OutProjBody
import proofs.«117631_j45681272160319_1_alg».proof.Proof.SpecAt
import Idealize.ShloMosaic.Lib.Pipeline.Value

set_option maxRecDepth 16384

noncomputable section

namespace Cert.MHA.OutProjArray

open Cert.KernelIdeal Cert.KernelIdeal.Gen Cert.MHA Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The block indices over the grid: the input block follows the output block (batch entry and token tile), the weights and
    the bias are one block each. -/
theorem idx_facts : ∀ t : Fin cfg2.N,
    win2_0.index t (0 : Fin 4) = win2_3.index t (0 : Fin 3) ∧ win2_0.index t (1 : Fin 4) = 0
    ∧ win2_0.index t (2 : Fin 4) = win2_3.index t (1 : Fin 3) ∧ win2_0.index t (3 : Fin 4) = 0
    ∧ win2_1.index t (0 : Fin 2) = 0 ∧ win2_1.index t (1 : Fin 2) = 0 ∧ win2_2.index t (0 : Fin 1) = 0
    ∧ win2_3.index t (2 : Fin 3) = 0 ∧ win2_3.index t (0 : Fin 3) ≤ 3 ∧ win2_3.index t (1 : Fin 3) ≤ 1 :=
  (by decide +kernel : ∀ t : Fin grid2.N, _)

/-- Every (batch entry, token tile) pair is some grid point's output block. -/
theorem idx_onto : ∀ (q0 : Fin 4) (q1 : Fin 2), ∃ t : Fin cfg2.N, win2_3.index t = ![q0.val, q1.val, 0] :=
  (by decide +kernel : ∀ (q0 : Fin 4) (q1 : Fin 2), ∃ t : Fin grid2.N, win2_3.index t = ![q0.val, q1.val, 0])

/-- WHAT POINT `t` WRITES BACK is block `t` of the projection of the arrays the region finds. -/
theorem flushed_eq (c : Dev nD) (t : Fin cfg2.N) :
    (dat2 V c).flushed 3 t = ((cfg2.win 3).blk t).view.read (Elt Ideal) (Yarr (V c main_v1) (V c main_arg4) (V c main_arg5)) := by
  show (cfg2.win 3).cut (grid2.coords t) ((dat2 V c).after 3 t) = _
  rw [after2_3]
  unfold out2_3
  rw [View.canon_unit_zero hz3]
  simp only [View.ld_unit_zero (S := S1x12x512x64) hz4, View.ld_unit_zero (S := S768x768) hz2, View.ld_unit_zero (S := S768) hz1]
  obtain ⟨e0, e1, e2, e3, e4, e5, e6, e7, e8, e9⟩ := idx_facts t
  funext j
  obtain ⟨z, r, e, rfl⟩ : ∃ (z : Fin 1) (r : Fin 512) (e : Fin 768), j = ix3 z r e := ⟨j 0, j 1, j 2, eq_ix3 j⟩
  have hz : z.val = 0 := by have := z.isLt; omega
  have hr : r.val < 512 := r.isLt
  show Gen.k2_pay1 (iblk2 V c 0 t) (iblk2 V c 1 t) (iblk2 V c 2 t) (ix3 z r e)
    = Yarr (V c main_v1) (V c main_arg4) (V c main_arg5) (((cfg2.win 3).blk t).view.emb (ix3 z r e))
  refine (OutProjBody.payload_at (iblk2 V c 0 t) (iblk2 V c 1 t) (iblk2 V c 2 t) z r e).trans ?_
  refine Eq.trans ?_ (Yarr_at (V c main_v1) (V c main_arg4) (V c main_arg5) (((cfg2.win 3).blk t).view.emb (ix3 z r e))
    ⟨win2_3.index t (0 : Fin 3), by omega⟩ ⟨win2_3.index t (1 : Fin 3) * 512 + r.val, by omega⟩ e ?_ ?_ ?_).symm
  · unfold outAt
    refine congr (congr (congrArg dotRow (funext fun k => ?_)) (funext fun k => ?_)) ?_
    · show V c main_v1 (((cfg2.win 0).blk t).view.emb (ix4 0 (headOf k) r (laneOf k))) = _
      refine congrArg (V c main_v1) (funext fun a => Fin.ext ?_)
      match a with
      | ⟨0, _⟩ => show win2_0.index t (0 : Fin 4) * 1 + 1 * 0 = win2_3.index t (0 : Fin 3); omega
      | ⟨1, _⟩ => show win2_0.index t (1 : Fin 4) * 12 + 1 * (headOf k).val = (headOf k).val; omega
      | ⟨2, _⟩ => show win2_0.index t (2 : Fin 4) * 512 + 1 * r.val = win2_3.index t (1 : Fin 3) * 512 + r.val; omega
      | ⟨3, _⟩ => show win2_0.index t (3 : Fin 4) * 64 + 1 * (laneOf k).val = (laneOf k).val; omega
    · show V c main_arg4 (((cfg2.win 1).blk t).view.emb (ix2 e k)) = _
      refine congrArg (V c main_arg4) (funext fun a => Fin.ext ?_)
      match a with
      | ⟨0, _⟩ => show win2_1.index t (0 : Fin 2) * 768 + 1 * e.val = e.val; omega
      | ⟨1, _⟩ => show win2_1.index t (1 : Fin 2) * 768 + 1 * k.val = k.val; omega
    · show V c main_arg5 (((cfg2.win 2).blk t).view.emb (ix1 e)) = _
      refine congrArg (V c main_arg5) (funext fun a => Fin.ext ?_)
      match a with
      | ⟨0, _⟩ => show win2_2.index t (0 : Fin 1) * 768 + 1 * e.val = e.val; omega
  · show win2_3.index t (0 : Fin 3) * 1 + 1 * z.val = win2_3.index t (0 : Fin 3); omega
  · show win2_3.index t (1 : Fin 3) * 512 + 1 * r.val = win2_3.index t (1 : Fin 3) * 512 + r.val; omega
  · show win2_3.index t (2 : Fin 3) * 768 + 1 * e.val = e.val; omega

/-- An index of the result array is in point `t`'s block iff each coordinate is in the block's range on its axis. -/
theorem mem_blk (t : Fin cfg2.N) (i : S4x1024x768.Idx) :
    i ∈ ((cfg2.win 3).blk t).view.set ↔ ∀ a : Fin 3, win2_3.index t a * S1x512x768.size a ≤ (i a).val ∧ (i a).val < win2_3.index t a * S1x512x768.size a + S1x512x768.size a := by
  show i ∈ ((View.whole main_v2).slice (win2_3.rect t)).set ↔ _
  rw [View.set_slice_whole, Rect.mem_set_unit]
  exact Iff.rfl

/-- The eight blocks tile the result: token l of batch entry b lies in the block of point (b, l / 512). -/
theorem cover (i : S4x1024x768.Idx) : ∃ t : Fin cfg2.N, (cfg2.win 3).flush t = true ∧ i ∈ ((cfg2.win 3).blk t).view.set := by
  have hi0 : (i 0).val < 4 := (i 0).isLt
  have hi1 : (i 1).val < 1024 := (i 1).isLt
  have hi2 : (i 2).val < 768 := (i 2).isLt
  obtain ⟨t, ht⟩ := idx_onto ⟨(i 0).val, by omega⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 768 ≤ (i 2).val ∧ (i 2).val < win2_3.index t (2 : Fin 3) * 768 + 768; omega

/-- THE RESULT ARRAY after the region: the output projection of the arrays the region finds. -/
theorem result (c : Dev nD) : (dat2 V c).arrAt 3 cfg2.N = Yarr (V c main_v1) (V c main_arg4) (V c main_arg5) :=
  (dat2 V c).arrAt_eq_of_cover 3 (Yarr (V c main_v1) (V c main_arg4) (V c main_arg5)) (fun t _ => flushed_eq V c t) cover

end Cert.MHA.OutProjArray

end
-- ==== Proof.KernelValue.lean ====
/-
  The idealized kernel computes the layer of the specification.

  The three regions hand arrays to one another through memory: the first leaves the scaled queries, the keys and the values,
  each a function of the launch arguments; the second finds those three arrays untouched together with the bias argument and
  leaves the heads' outputs; the third finds that array and the output weights and bias and leaves the result. Reading the
  boundary contents back through the three stages gives the result buffer as the specification's layer of the six arguments.
-/
import proofs.«117631_j45681272160319_1_alg».proof.Proof.KernelRun
import proofs.«117631_j45681272160319_1_alg».proof.Proof.QkvArray
import proofs.«117631_j45681272160319_1_alg».proof.Proof.AttnArray
import proofs.«117631_j45681272160319_1_alg».proof.Proof.OutProjArray

set_option maxRecDepth 16384

noncomputable section

namespace Cert.MHA.KernelValue

open Cert.KernelIdeal Cert.KernelIdeal.Gen Cert.MHA Idealize.ShloMosaic Idealize.ShloMosaic.TcCoe Idealize.SL.Sem

variable (m : (ℓ : Loc nD τ sig) → Buf (Elt Ideal) ℓ) (ρ : Dev nD → PrngReg)

/-! ## After the projection region -/

theorem q_after (c : Dev nD) : V1 m ρ c main_v0_0
    = Qarr (m ((c : Thread nD τ).loc main_arg0)) (m ((c : Thread nD τ).loc main_arg2)) (m ((c : Thread nD τ).loc main_arg3)) :=
  (hF0 m ρ c 3).symm.trans (QkvArray.q_result (V0 m ρ) c)

theorem k_after (c : Dev nD) : V1 m ρ c main_v0_1
    = Karr (m ((c : Thread nD τ).loc main_arg0)) (m ((c : Thread nD τ).loc main_arg2)) (m ((c : Thread nD τ).loc main_arg3)) :=
  (hF0 m ρ c 4).symm.trans (QkvArray.k_result (V0 m ρ) c)

theorem v_after (c : Dev nD) : V1 m ρ c main_v0_2
    = Varr (m ((c : Thread nD τ).loc main_arg0)) (m ((c : Thread nD τ).loc main_arg2)) (m ((c : Thread nD τ).loc main_arg3)) :=
  (hF0 m ρ c 5).symm.trans (QkvArray.v_result (V0 m ρ) c)

/-- The bias argument is not one of the projection region's arrays. -/
theorem bias_after (c : Dev nD) : V1 m ρ c main_arg1 = m ((c : Thread nD τ).loc main_arg1) :=
  W1_of_ne m ρ c main_arg1 (by decide)

/-! ## After the attention region -/

theorem o_after (c : Dev nD) : V2 m ρ c main_v1
    = Oarr (Qarr (m ((c : Thread nD τ).loc main_arg0)) (m ((c : Thread nD τ).loc main_arg2)) (m ((c : Thread nD τ).loc main_arg3)))
        (Karr (m ((c : Thread nD τ).loc main_arg0)) (m ((c : Thread nD τ).loc main_arg2)) (m ((c : Thread nD τ).loc main_arg3)))
        (Varr (m ((c : Thread nD τ).loc main_arg0)) (m ((c : Thread nD τ).loc main_arg2)) (m ((c : Thread nD τ).loc main_arg3)))
        (m ((c : Thread nD τ).loc main_arg1)) := by
  refine (hF1 m ρ c 4).symm.trans ((AttnArray.result (V1 m ρ) c).trans ?_)
  rw [q_after, k_after, v_after, bias_after]

/-- The output weights and bias are arrays of neither earlier region. -/
theorem wout_after (c : Dev nD) : V2 m ρ c main_arg4 = m ((c : Thread nD τ).loc main_arg4) :=
  (W2_of_ne m ρ c main_arg4 (by decide)).trans (W1_of_ne m ρ c main_arg4 (by decide))
theorem bout_after (c : Dev nD) : V2 m ρ c main_arg5 = m ((c : Thread nD τ).loc main_arg5) :=
  (W2_of_ne m ρ c main_arg5 (by decide)).trans (W1_of_ne m ρ c main_arg5 (by decide))

/-! ## After the output projection -/

theorem result_after (c : Dev nD) : W3 m ρ c (Proc.devRef .tc main_v2)
    = layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W3_arr m ρ c 3).trans ((OutProjArray.result (V2 m ρ) c).trans ?_)
  rw [o_after, wout_after, bout_after]
  rfl

/-- THE KERNEL'S RUN: every weakly fair execution terminates without a fault, the result buffer holds the layer of the
    launch arguments, and the arguments end unchanged. -/
theorem run : θ_run defs (onTc (τ := τ) (main (F := Ideal))) ⟨m, fun _ => 0, ρ⟩ (fun r => ∀ c : Dev nD,
      r.2.mem ((c.tc : Thread nD τ).loc main_v2)
        = layer (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_after m ρ c), (h c).2⟩) (Cert.KernelIdeal.Result.run_result m ρ)

end Cert.MHA.KernelValue

end
-- ==== Proof.lean ====
/-
  Multi-head self-attention in three kernel regions against its plain reference: the certificate's claims.

  Both programs, read over the extended reals, compute the layer of Proof/Spec.lean: the fused projection
  x · w_inᵀ + b_in cut into scaled queries, keys and values per head; per head and query row the softmax of
  q · kᵀ + bias (row maximum from -∞, exponentials, row sum, quotient) against the values; the heads merged and projected by
  w_outᵀ + b_out. The reference's side is Proof/RefSpec.lean (its operations read at an index), the kernel's side is
  Proof/KernelValue.lean (each region's blocks tile its output arrays, and the regions' arrays chain through memory). No law of
  arithmetic joins the two sides: they are the same terms, so the precondition is never opened. The idealization rewrote no
  operation, so the preservation claim is trivial; the frames are the programs' runs with the results dropped.
-/
import proofs.«117631_j45681272160319_1_alg».proof.Defs
import proofs.«117631_j45681272160319_1_alg».proof.Proof.Gen.Kernel
import proofs.«117631_j45681272160319_1_alg».proof.Proof.Gen.Kernel.Frame
import proofs.«117631_j45681272160319_1_alg».proof.Proof.Gen.KernelIdeal
import proofs.«117631_j45681272160319_1_alg».proof.Proof.Gen.KernelIdeal.Frame
import proofs.«117631_j45681272160319_1_alg».proof.Proof.Gen.ReferenceIdeal
import proofs.«117631_j45681272160319_1_alg».proof.Proof.Gen.Pre_finite_inputs
import proofs.«117631_j45681272160319_1_alg».proof.Proof.Gen.ReferenceIdeal.Run
import proofs.«117631_j45681272160319_1_alg».proof.Proof.Gen.ReferenceIdeal.Read
import proofs.«117631_j45681272160319_1_alg».proof.Proof.RefSpec
import proofs.«117631_j45681272160319_1_alg».proof.Proof.KernelValue

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs, run from memories that agree on the six arguments, end with the layer of those arguments in their result
    buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.MHA.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.MHA.Ref.ref_layer, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
